-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 94
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .f32⟩
  | .hbm, ⟨67, _⟩ => ⟨S850000x1, .f32⟩
  | .hbm, ⟨68, _⟩ => ⟨S850000x128, .f32⟩
  | .hbm, ⟨69, _⟩ => ⟨S850000x128, .f32⟩
  | .hbm, ⟨70, _⟩ => ⟨S_, .f32⟩
  | .hbm, ⟨71, _⟩ => ⟨S50000x128, .f32⟩
  | .hbm, ⟨72, _⟩ => ⟨S850000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x64, .f32⟩
  | .hbm, ⟨93, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x64, .f32⟩
  | 9 => ⟨S64, .f32⟩
  | 10 => ⟨S128x64, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x128, .f32⟩
  | 49 => ⟨S850000x1, .f32⟩
  | 50 => ⟨S850000x128, .f32⟩
  | 51 => ⟨S850000x128, .f32⟩
  | 52 => ⟨S_, .f32⟩
  | 53 => ⟨S50000x128, .f32⟩
  | 54 => ⟨S850000x1, .i32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S850000, .f32⟩
  | 67 => ⟨S_, .f32⟩
  | 68 => ⟨S50000, .f32⟩
  | 69 => ⟨S850000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S_, .f32⟩
  | 76 => ⟨S50000, .f32⟩
  | 77 => ⟨S50000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S850000, .f32⟩
  | 114 => ⟨S_, .f32⟩
  | 115 => ⟨S50000, .f32⟩
  | 116 => ⟨S850000x1, .i32⟩
  | 117 => ⟨S50000, .f32⟩
  | 118 => ⟨S_, .f32⟩
  | 119 => ⟨S_, .f32⟩
  | 120 => ⟨S50000, .f32⟩
  | 121 => ⟨S50000, .f32⟩
  | 122 => ⟨S_, .f32⟩
  | 123 => ⟨S50000, .f32⟩
  | 124 => ⟨S50000, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x1, .f32⟩
  | 16 => ⟨S850000x128, .f32⟩
  | 17 => ⟨S850000x128, .f32⟩
  | 18 => ⟨S_, .f32⟩
  | 19 => ⟨S50000x128, .f32⟩
  | 20 => ⟨S850000x1, .i32⟩
  | 21 => ⟨S50000x128, .f32⟩
  | 22 => ⟨S50000x64, .f32⟩
  | 23 => ⟨S1x64, .f32⟩
  | 24 => ⟨S50000x64, .f32⟩
  | 25 => ⟨S50000x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S_, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x64, .f32⟩
  | 38 => ⟨S50000x64, .f32⟩
  | 39 => ⟨S50000x64, .f32⟩
  | 40 => ⟨S_, .f32⟩
  | 41 => ⟨S50000, .f32⟩
  | 42 => ⟨S50000x1, .f32⟩
  | 43 => ⟨S50000x1, .f32⟩
  | 44 => ⟨S50000x64, .f32⟩
  | 45 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_cst : Ref sig .tc := ⟨.hbm, 62, rfl⟩
abbrev main_call1_v0 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_call2_v0 : Ref sig .tc := ⟨.hbm, 72, rfl⟩
abbrev main_call2_v1 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_v55 : Ref sig .tc := ⟨.hbm, 88, rfl⟩
abbrev main_v56 : Ref sig .tc := ⟨.hbm, 89, rfl⟩
abbrev main_c_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call3_cst : Ref sig .tc := ⟨.hbm, 109, rfl⟩
abbrev main_call3_v0 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_18 : Ref sig .tc := ⟨.hbm, 118, rfl⟩
abbrev main_call4_v0 : Ref sig .tc := ⟨.hbm, 119, rfl⟩
abbrev main_call4_v1 : Ref sig .tc := ⟨.hbm, 120, rfl⟩
abbrev main_v79 : Ref sig .tc := ⟨.hbm, 121, rfl⟩
abbrev main_cst_19 : Ref sig .tc := ⟨.hbm, 122, rfl⟩
abbrev main_v80 : Ref sig .tc := ⟨.hbm, 123, rfl⟩
abbrev main_v81 : Ref sig .tc := ⟨.hbm, 124, rfl⟩
abbrev main_c_20 : Ref sig .tc := ⟨.hbm, 125, rfl⟩
abbrev main_v82 : Ref sig .tc := ⟨.hbm, 126, rfl⟩
abbrev main_v83 : Ref sig .tc := ⟨.hbm, 127, rfl⟩
abbrev main_c_21 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_22 : Ref sig .tc := ⟨.hbm, 134, rfl⟩
abbrev main_v89 : Ref sig .tc := ⟨.hbm, 135, rfl⟩
abbrev main_v90 : Ref sig .tc := ⟨.hbm, 136, rfl⟩
abbrev main_c_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_24 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call5_cst : Ref sig .tc := ⟨.hbm, 156, rfl⟩
abbrev main_call5_v0 : Ref sig .tc := ⟨.hbm, 157, rfl⟩
abbrev main_v108 : Ref sig .tc := ⟨.hbm, 158, rfl⟩
abbrev main_call6_cst : Ref sig .tc := ⟨.hbm, 159, rfl⟩
abbrev main_call6_v0 : Ref sig .tc := ⟨.hbm, 160, rfl⟩
abbrev main_call6_cst_0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_cst_1 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_v109 : Ref sig .tc := ⟨.hbm, 173, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with every buffer named.

  The program is three launches of the dense step among stretches of host operations. The launch theorem for such a
  program takes the program as a list of segments, a thread state before and after each, and a post-condition read
  off the last thread state. The segments, their chaining and the last state (every unscoped buffer at the contents
  `W8` the fold through the segments leaves) are those of the frame; here the post-condition keeps ALL of the last
  state — each unscoped buffer of each core ends at `W8` — where the frame keeps only the argument arrays. The result
  array and the arguments are then read off this one statement.
-/
import proofs.«120820_j49323404427977_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every core
    ends at the contents the fold through the segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Gcn.KernelRun

end
-- ==== Proof.Graph.lean ====
/-
  The host side of the graph convolution, as pure functions of arrays — the words both programs' host operations are
  read in.

  From the edge list `e` (two rows of 800000 node numbers): `rowT e` and `colT e` are the sources and the targets with the
  50000 self loops appended. `normIdx` wraps a negative index round once (an index is read the way array indexing
  reads it). `wgtT col` is, per edge, the reciprocal of its target's degree (the degree counted by scatter-adding
  ones over the targets, and clipped below at one). `aggT h row col wgt` gathers the sources' feature rows, scales
  each by its edge's weight and scatter-adds them at the targets: the mean of the neighbours' features.
  `refDense128` / `refDense64` are the dense step as the reference writes it — two whole-array products, the bias
  broadcast down the rows and added between them, the maximum with zero — and `refLogSoftmax` its row-wise
  log-softmax (row maximum from minus infinity, the shifted entries, their exponentials' row sum, its logarithm).
-/
import proofs.«120820_j49323404427977_2_alg».proof.Proof.Gen.ReferenceIdeal
import Idealize.ShloMosaic.PureOps.Ideal

noncomputable section

namespace Cert.Gcn.Graph

open Idealize.ShloMosaic Cert.ReferenceIdeal Cert.ReferenceIdeal.Gen

/-- The contents of an array of a shape and element type, at the extended reals. -/
abbrev Arr (s : Shape) (t : EltTy) : Type := (⟨s, t⟩ : BufTy).Contents (Elt Ideal)

/-- The edges' sources, self loops appended. -/
def rowT (e : Arr S2x800000 .i32) : Arr S850000 .i32 :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- The edges' targets, self loops appended. -/
def colT (e : Arr S2x800000 .i32) : Arr S850000 .i32 :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- A negative index wrapped round once. -/
def normIdx (v : Arr S850000 .i32) : Arr S850000 .i32 :=
  select (cmpi .slt v (broadcastInDim S850000 ![] bcast_S_S850000 (constantI S_ 32 0#32))) (addi v (broadcastInDim S850000 ![] bcast_S_S850000 (constantI S_ 32 50000#32))) v

/-- Per edge, one over its target's degree (clipped below at one). -/
def wgtT (col : Arr S850000 .i32) : Arr S850000 .f32 :=
  Host.gather gather_S50000_S850000x1_S850000_n_0_n_n_0_1_1
    (Host.divf (F := Ideal) (broadcastInDim S50000 ![] bcast_S_S50000 (constant (F := Ideal) S_ .f32 0x3F800000#32))
      (maximumf (F := Ideal) (broadcastInDim S50000 ![] bcast_S_S50000 (id (constant (F := Ideal) S_ .f32 0x3F800000#32)))
        (Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 col) (broadcastInDim S850000 ![] bcast_S_S850000 (constant (F := Ideal) S_ .f32 0x3F800000#32)))))
    (broadcastInDim S850000x1 ![0] bcast_S850000_S850000x1_0 (normIdx col))

/-- The weighted sum, at every node, of the feature rows of the sources of the edges into it. -/
def aggT (h : Arr S50000x128 .f32) (row col : Arr S850000 .i32) (wgt : Arr S850000 .f32) : Arr S50000x128 .f32 :=
  Host.scatterAdd (F := Ideal) scatter_S50000x128_S850000x1_S850000x128_1_0_0_1 (broadcastInDim S50000x128 ![] bcast_S_S50000x128 (constant (F := Ideal) S_ .f32 0x00000000#32)) (broadcastInDim S850000x1 ![0] bcast_S850000_S850000x1_0 col)
    (mulf (F := Ideal) (Host.gather gather_S50000x128_S850000x1_S850000x128_1_0_n_n_0_1_1128 h (broadcastInDim S850000x1 ![0] bcast_S850000_S850000x1_0 (normIdx row)))
      (broadcastInDim S850000x128 ![0, 1] bcast_S850000x1_S850000x128_0_1 (broadcastInDim S850000x1 ![0] bcast_S850000_S850000x1_0 wgt)))

/-- The dense step into 128 features as the reference writes it. -/
def refDense128 (agg x : Arr S50000x128 .f32) (w : Arr S128x128 .f32) (b : Arr S128 .f32) (r : Arr S128x128 .f32) : Arr S50000x128 .f32 :=
  maximumf (F := Ideal) (addf (F := Ideal) (addf (F := Ideal) (Host.dotGeneral (F := Ideal) (φ₁ := .f32) (φ₂ := .f32) dot_S50000x128_S128x128_S50000x128_1_0_0_1_n_n none agg w) (broadcastInDim S50000x128 ![0, 1] bcast_S1x128_S50000x128_0_1 (broadcastInDim S1x128 ![1] bcast_S128_S1x128_1 b))) (Host.dotGeneral (F := Ideal) (φ₁ := .f32) (φ₂ := .f32) dot_S50000x128_S128x128_S50000x128_1_0_0_1_n_n none x r)) (broadcastInDim S50000x128 ![] bcast_S_S50000x128 (constant (F := Ideal) S_ .f32 0x00000000#32))

/-- The dense step into 64 features as the reference writes it. -/
def refDense64 (agg x : Arr S50000x128 .f32) (w : Arr S128x64 .f32) (b : Arr S64 .f32) (r : Arr S128x64 .f32) : Arr S50000x64 .f32 :=
  maximumf (F := Ideal) (addf (F := Ideal) (addf (F := Ideal) (Host.dotGeneral (F := Ideal) (φ₁ := .f32) (φ₂ := .f32) dot_S50000x128_S128x64_S50000x64_1_0_0_1_n_n none agg w) (broadcastInDim S50000x64 ![0, 1] bcast_S1x64_S50000x64_0_1 (broadcastInDim S1x64 ![1] bcast_S64_S1x64_1 b))) (Host.dotGeneral (F := Ideal) (φ₁ := .f32) (φ₂ := .f32) dot_S50000x128_S128x64_S50000x64_1_0_0_1_n_n none x r)) (broadcastInDim S50000x64 ![] bcast_S_S50000x64 (constant (F := Ideal) S_ .f32 0x00000000#32))

/-- The row-wise log-softmax as the reference writes it. -/
def refLogSoftmax (h : Arr S50000x64 .f32) : Arr S50000x64 .f32 :=
  subf (F := Ideal) (subf (F := Ideal) h (broadcastInDim S50000x64 ![0, 1] bcast_S50000x1_S50000x64_0_1 (broadcastInDim S50000x1 ![0] bcast_S50000_S50000x1_0 (maximumf (F := Ideal) (broadcastInDim S50000 ![] bcast_S_S50000 (constant (F := Ideal) S_ .f32 0xFF800000#32)) (Host.reduce (FloatOps.maximumf (F := Ideal)) h (constant (F := Ideal) S_ .f32 0xFF800000#32) reducesTo_S50000x64_S50000_d1 h_S_))))) (broadcastInDim S50000x64 ![0, 1] bcast_S50000x1_S50000x64_0_1 (Host.log (F := Ideal) (broadcastInDim S50000x1 ![0] bcast_S50000_S50000x1_0 (Host.reduceAdd (F := Ideal) (Host.exp (F := Ideal) (subf (F := Ideal) h (broadcastInDim S50000x64 ![0, 1] bcast_S50000x1_S50000x64_0_1 (broadcastInDim S50000x1 ![0] bcast_S50000_S50000x1_0 (maximumf (F := Ideal) (broadcastInDim S50000 ![] bcast_S_S50000 (constant (F := Ideal) S_ .f32 0xFF800000#32)) (Host.reduce (FloatOps.maximumf (F := Ideal)) h (constant (F := Ideal) S_ .f32 0xFF800000#32) reducesTo_S50000x64_S50000_d1 h_S_)))))) (constant (F := Ideal) S_ .f32 0x00000000#32) reducesTo_S50000x64_S50000_d1 h_S_))))

end Cert.Gcn.Graph

end
-- ==== Proof.KernelStretch.lean ====
/-
  The idealized kernel's host stretches, read as pure functions.

  From ANY buffer contents at a stretch's start, the buffers the stretch writes hold the functions of Graph.lean of
  what it reads, and the buffers it does not write are as they were. Before the first launch: the sources and the
  targets (the first seven operations; each joins a row of the edge list with the self loops), then, from those,
  the degree weights, the aggregated input features and the first bias cast to a row. Between launches: the
  aggregated hidden features and the next bias as a row. The first stretch is read in two parts so that the joined
  index arrays are named before anything reads them.
-/
import proofs.«120820_j49323404427977_2_alg».proof.Proof.Gen.KernelIdeal.Frame
import proofs.«120820_j49323404427977_2_alg».proof.Proof.Graph
import Idealize.ShloMosaic.Lib.StableHlo.Run

set_option maxRecDepth 16384

noncomputable section

namespace Cert.Gcn.KernelStretch

open Cert.KernelIdeal Cert.KernelIdeal.Gen Cert.Gcn Cert.Gcn.Graph
open Idealize.ShloMosaic Idealize.ShloMosaic.TcCoe Idealize.SL.Sem Idealize.ShloMosaic.StableHlo

section Lists
variable {F : FTy → Type} [FloatOps F]

/-- The first stretch's first seven operations: the sources and the targets, self loops appended. -/
abbrev opsRC : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The rest of the first stretch: the degree count. -/
abbrev opsDeg : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x3F800000#32) ]

theorem hostOps0_split : (hostOps0 : List (HloOp τ sig (Elt F))) = opsRC ++ opsDeg := rfl

/-- The fold over two stretches is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Lists

/-- Contents carried to a buffer's type and back are the contents. -/
theorem ofBuf_toBuf {Val : EltTy → Type} {T : BufTy} (x : TRef sig T) (v : T.Contents Val) : x.ofBuf (x.toBuf v) = v := by
  obtain ⟨r, h, h2, h3⟩ := x
  subst h
  rfl

/-! The carrying is the identity at the buffers where a called function's operations meet the others. -/
set_option maxHeartbeats 200000 in
theorem toBuf_v11 (p1 p2 p3) (v : (⟨S50000, .f32⟩ : BufTy).Contents (Elt Ideal)) :
    (TRef.of (sig := sig) (T := ⟨S50000, .f32⟩) main_v11 p1 p2 p3).toBuf (Val := Elt Ideal) v = v := rfl
set_option maxHeartbeats 200000 in
theorem ofBuf_v10 (p1 p2 p3) (v : (⟨S50000, .f32⟩ : BufTy).Contents (Elt Ideal)) :
    (TRef.of (sig := sig) (T := ⟨S50000, .f32⟩) main_v10 p1 p2 p3).ofBuf (Val := Elt Ideal) v = v := rfl
set_option maxHeartbeats 200000 in
theorem ofBuf_cst_1 (p1 p2 p3) (v : (⟨S_, .f32⟩ : BufTy).Contents (Elt Ideal)) :
    (TRef.of (sig := sig) (T := ⟨S_, .f32⟩) main_cst_1 p1 p2 p3).ofBuf (Val := Elt Ideal) v = v := rfl

section Stretches

variable (W : Valuation τ sig (Elt Ideal))

/-! ### The sources and the targets -/
theorem RC_row : after (opsRC (F := Ideal)) W (Proc.devRef .tc main_v3) = rowT (W (Proc.devRef .tc main_arg1)) := by
  after_results_simp
  unfold rowT
  rfl
theorem RC_col : after (opsRC (F := Ideal)) W (Proc.devRef .tc main_v6) = colT (W (Proc.devRef .tc main_arg1)) := by
  after_results_simp
  unfold colT
  rfl
theorem RC_keep_arg0 : after (opsRC (F := Ideal)) W (Proc.devRef .tc main_arg0) = W (Proc.devRef .tc main_arg0) := by after_results_simp
theorem RC_keep_arg2 : after (opsRC (F := Ideal)) W (Proc.devRef .tc main_arg2) = W (Proc.devRef .tc main_arg2) := by after_results_simp
theorem RC_keep_arg3 : after (opsRC (F := Ideal)) W (Proc.devRef .tc main_arg3) = W (Proc.devRef .tc main_arg3) := by after_results_simp
theorem RC_keep_arg4 : after (opsRC (F := Ideal)) W (Proc.devRef .tc main_arg4) = W (Proc.devRef .tc main_arg4) := by after_results_simp
theorem RC_keep_arg5 : after (opsRC (F := Ideal)) W (Proc.devRef .tc main_arg5) = W (Proc.devRef .tc main_arg5) := by after_results_simp
theorem RC_keep_arg6 : after (opsRC (F := Ideal)) W (Proc.devRef .tc main_arg6) = W (Proc.devRef .tc main_arg6) := by after_results_simp
theorem RC_keep_arg7 : after (opsRC (F := Ideal)) W (Proc.devRef .tc main_arg7) = W (Proc.devRef .tc main_arg7) := by after_results_simp
theorem RC_keep_arg8 : after (opsRC (F := Ideal)) W (Proc.devRef .tc main_arg8) = W (Proc.devRef .tc main_arg8) := by after_results_simp
theorem RC_keep_arg9 : after (opsRC (F := Ideal)) W (Proc.devRef .tc main_arg9) = W (Proc.devRef .tc main_arg9) := by after_results_simp
theorem RC_keep_arg10 : after (opsRC (F := Ideal)) W (Proc.devRef .tc main_arg10) = W (Proc.devRef .tc main_arg10) := by after_results_simp

/-! ### The rest before the first launch, from contents that hold the sources and the targets -/
theorem T_wgt : after hostOps0_2 (after hostOps0_1 (after (opsDeg (F := Ideal)) W)) (Proc.devRef .tc main_v20) = wgtT (W (Proc.devRef .tc main_v6)) := by
  after_results_simp
  simp only [ofBuf_toBuf]
  rw [toBuf_v11, ofBuf_v10, ofBuf_cst_1]
  unfold wgtT normIdx
  rfl
theorem T_agg : after hostOps0_2 (after hostOps0_1 (after (opsDeg (F := Ideal)) W)) (Proc.devRef .tc main_v33)
    = aggT (W (Proc.devRef .tc main_arg0)) (W (Proc.devRef .tc main_v3)) (W (Proc.devRef .tc main_v6)) (wgtT (W (Proc.devRef .tc main_v6))) := by
  after_results_simp
  simp only [ofBuf_toBuf]
  rw [toBuf_v11, ofBuf_v10, ofBuf_cst_1]
  unfold aggT wgtT normIdx
  rfl
theorem T_bias : after hostOps0_2 (after hostOps0_1 (after (opsDeg (F := Ideal)) W)) (Proc.devRef .tc main_v34) = shapeCast S1x128 (W (Proc.devRef .tc main_arg3)) shapeCasts_S128_S1x128 := by
  after_results_simp <;> rfl
theorem T_keep_v3 : after hostOps0_2 (after hostOps0_1 (after (opsDeg (F := Ideal)) W)) (Proc.devRef .tc main_v3) = W (Proc.devRef .tc main_v3) := by after_results_simp
theorem T_keep_v6 : after hostOps0_2 (after hostOps0_1 (after (opsDeg (F := Ideal)) W)) (Proc.devRef .tc main_v6) = W (Proc.devRef .tc main_v6) := by after_results_simp
theorem T_keep_arg0 : after hostOps0_2 (after hostOps0_1 (after (opsDeg (F := Ideal)) W)) (Proc.devRef .tc main_arg0) = W (Proc.devRef .tc main_arg0) := by after_results_simp
theorem T_keep_arg2 : after hostOps0_2 (after hostOps0_1 (after (opsDeg (F := Ideal)) W)) (Proc.devRef .tc main_arg2) = W (Proc.devRef .tc main_arg2) := by after_results_simp
theorem T_keep_arg4 : after hostOps0_2 (after hostOps0_1 (after (opsDeg (F := Ideal)) W)) (Proc.devRef .tc main_arg4) = W (Proc.devRef .tc main_arg4) := by after_results_simp
theorem T_keep_arg5 : after hostOps0_2 (after hostOps0_1 (after (opsDeg (F := Ideal)) W)) (Proc.devRef .tc main_arg5) = W (Proc.devRef .tc main_arg5) := by after_results_simp
theorem T_keep_arg6 : after hostOps0_2 (after hostOps0_1 (after (opsDeg (F := Ideal)) W)) (Proc.devRef .tc main_arg6) = W (Proc.devRef .tc main_arg6) := by after_results_simp
theorem T_keep_arg7 : after hostOps0_2 (after hostOps0_1 (after (opsDeg (F := Ideal)) W)) (Proc.devRef .tc main_arg7) = W (Proc.devRef .tc main_arg7) := by after_results_simp
theorem T_keep_arg8 : after hostOps0_2 (after hostOps0_1 (after (opsDeg (F := Ideal)) W)) (Proc.devRef .tc main_arg8) = W (Proc.devRef .tc main_arg8) := by after_results_simp
theorem T_keep_arg9 : after hostOps0_2 (after hostOps0_1 (after (opsDeg (F := Ideal)) W)) (Proc.devRef .tc main_arg9) = W (Proc.devRef .tc main_arg9) := by after_results_simp
theorem T_keep_arg10 : after hostOps0_2 (after hostOps0_1 (after (opsDeg (F := Ideal)) W)) (Proc.devRef .tc main_arg10) = W (Proc.devRef .tc main_arg10) := by after_results_simp

/-- The first stretch is its two parts in order. -/
theorem first_eq : after hostOps0_2 (after hostOps0_1 (after hostOps0 W)) = after hostOps0_2 (after hostOps0_1 (after (opsDeg (F := Ideal)) (after (opsRC (F := Ideal)) W))) := by
  rw [hostOps0_split, after_append]

/-! ### Before the first launch, whole -/
theorem S0_row : after hostOps0_2 (after hostOps0_1 (after hostOps0 W)) (Proc.devRef .tc main_v3) = rowT (W (Proc.devRef .tc main_arg1)) := by rw [first_eq, T_keep_v3, RC_row]
theorem S0_col : after hostOps0_2 (after hostOps0_1 (after hostOps0 W)) (Proc.devRef .tc main_v6) = colT (W (Proc.devRef .tc main_arg1)) := by rw [first_eq, T_keep_v6, RC_col]
theorem S0_wgt : after hostOps0_2 (after hostOps0_1 (after hostOps0 W)) (Proc.devRef .tc main_v20) = wgtT (colT (W (Proc.devRef .tc main_arg1))) := by rw [first_eq, T_wgt, RC_col]
theorem S0_agg : after hostOps0_2 (after hostOps0_1 (after hostOps0 W)) (Proc.devRef .tc main_v33)
    = aggT (W (Proc.devRef .tc main_arg0)) (rowT (W (Proc.devRef .tc main_arg1))) (colT (W (Proc.devRef .tc main_arg1))) (wgtT (colT (W (Proc.devRef .tc main_arg1)))) := by
  rw [first_eq, T_agg, RC_row, RC_col, RC_keep_arg0]
theorem S0_bias : after hostOps0_2 (after hostOps0_1 (after hostOps0 W)) (Proc.devRef .tc main_v34) = shapeCast S1x128 (W (Proc.devRef .tc main_arg3)) shapeCasts_S128_S1x128 := by
  rw [first_eq, T_bias, RC_keep_arg3]
theorem S0_keep_arg0 : after hostOps0_2 (after hostOps0_1 (after hostOps0 W)) (Proc.devRef .tc main_arg0) = W (Proc.devRef .tc main_arg0) := by rw [first_eq, T_keep_arg0, RC_keep_arg0]
theorem S0_keep_arg2 : after hostOps0_2 (after hostOps0_1 (after hostOps0 W)) (Proc.devRef .tc main_arg2) = W (Proc.devRef .tc main_arg2) := by rw [first_eq, T_keep_arg2, RC_keep_arg2]
theorem S0_keep_arg4 : after hostOps0_2 (after hostOps0_1 (after hostOps0 W)) (Proc.devRef .tc main_arg4) = W (Proc.devRef .tc main_arg4) := by rw [first_eq, T_keep_arg4, RC_keep_arg4]
theorem S0_keep_arg5 : after hostOps0_2 (after hostOps0_1 (after hostOps0 W)) (Proc.devRef .tc main_arg5) = W (Proc.devRef .tc main_arg5) := by rw [first_eq, T_keep_arg5, RC_keep_arg5]
theorem S0_keep_arg6 : after hostOps0_2 (after hostOps0_1 (after hostOps0 W)) (Proc.devRef .tc main_arg6) = W (Proc.devRef .tc main_arg6) := by rw [first_eq, T_keep_arg6, RC_keep_arg6]
theorem S0_keep_arg7 : after hostOps0_2 (after hostOps0_1 (after hostOps0 W)) (Proc.devRef .tc main_arg7) = W (Proc.devRef .tc main_arg7) := by rw [first_eq, T_keep_arg7, RC_keep_arg7]
theorem S0_keep_arg8 : after hostOps0_2 (after hostOps0_1 (after hostOps0 W)) (Proc.devRef .tc main_arg8) = W (Proc.devRef .tc main_arg8) := by rw [first_eq, T_keep_arg8, RC_keep_arg8]
theorem S0_keep_arg9 : after hostOps0_2 (after hostOps0_1 (after hostOps0 W)) (Proc.devRef .tc main_arg9) = W (Proc.devRef .tc main_arg9) := by rw [first_eq, T_keep_arg9, RC_keep_arg9]
theorem S0_keep_arg10 : after hostOps0_2 (after hostOps0_1 (after hostOps0 W)) (Proc.devRef .tc main_arg10) = W (Proc.devRef .tc main_arg10) := by rw [first_eq, T_keep_arg10, RC_keep_arg10]

/-! ### Between the first and the second launch -/
theorem S1_agg : after hostOps1 W (Proc.devRef .tc main_v48)
    = aggT (W (Proc.devRef .tc main_v35)) (W (Proc.devRef .tc main_v3)) (W (Proc.devRef .tc main_v6)) (W (Proc.devRef .tc main_v20)) := by
  after_results_simp
  unfold aggT normIdx
  rfl
theorem S1_bias : after hostOps1 W (Proc.devRef .tc main_v49) = shapeCast S1x128 (W (Proc.devRef .tc main_arg6)) shapeCasts_S128_S1x128 := by
  after_results_simp <;> rfl
theorem S1_keep_v35 : after hostOps1 W (Proc.devRef .tc main_v35) = W (Proc.devRef .tc main_v35) := by after_results_simp
theorem S1_keep_v3 : after hostOps1 W (Proc.devRef .tc main_v3) = W (Proc.devRef .tc main_v3) := by after_results_simp
theorem S1_keep_v6 : after hostOps1 W (Proc.devRef .tc main_v6) = W (Proc.devRef .tc main_v6) := by after_results_simp
theorem S1_keep_v20 : after hostOps1 W (Proc.devRef .tc main_v20) = W (Proc.devRef .tc main_v20) := by after_results_simp
theorem S1_keep_arg5 : after hostOps1 W (Proc.devRef .tc main_arg5) = W (Proc.devRef .tc main_arg5) := by after_results_simp
theorem S1_keep_arg7 : after hostOps1 W (Proc.devRef .tc main_arg7) = W (Proc.devRef .tc main_arg7) := by after_results_simp
theorem S1_keep_arg8 : after hostOps1 W (Proc.devRef .tc main_arg8) = W (Proc.devRef .tc main_arg8) := by after_results_simp
theorem S1_keep_arg9 : after hostOps1 W (Proc.devRef .tc main_arg9) = W (Proc.devRef .tc main_arg9) := by after_results_simp
theorem S1_keep_arg10 : after hostOps1 W (Proc.devRef .tc main_arg10) = W (Proc.devRef .tc main_arg10) := by after_results_simp

/-! ### Between the second and the third launch -/
theorem S2_agg : after hostOps2 W (Proc.devRef .tc main_v63)
    = aggT (W (Proc.devRef .tc main_v50)) (W (Proc.devRef .tc main_v3)) (W (Proc.devRef .tc main_v6)) (W (Proc.devRef .tc main_v20)) := by
  after_results_simp
  unfold aggT normIdx
  rfl
theorem S2_bias : after hostOps2 W (Proc.devRef .tc main_v64) = shapeCast S1x64 (W (Proc.devRef .tc main_arg9)) shapeCasts_S64_S1x64 := by
  after_results_simp <;> rfl
theorem S2_keep_v50 : after hostOps2 W (Proc.devRef .tc main_v50) = W (Proc.devRef .tc main_v50) := by after_results_simp
theorem S2_keep_arg8 : after hostOps2 W (Proc.devRef .tc main_arg8) = W (Proc.devRef .tc main_arg8) := by after_results_simp
theorem S2_keep_arg10 : after hostOps2 W (Proc.devRef .tc main_arg10) = W (Proc.devRef .tc main_arg10) := by after_results_simp

end Stretches

end Cert.Gcn.KernelStretch

end
-- ==== Proof.Spec.lean ====
/-
  One step of the graph convolution, entry by entry, on the extended reals.

  A node's new feature vector is `relu (agg · W + b + x · R)`: `agg` the degree-weighted mean of the neighbours'
  features (computed by gather and scatter-add around the dense step, the same text on both sides of the claim),
  `x` the node's own features, `W`, `R` the two weight matrices and `b` the bias. Entry `(p, q)` of the result is

      max ((∑ k, agg p k * W k q) + b q + (∑ k, x p k * R k q)) 0 .

  Both programs compute exactly this at every entry, differing only in the order of the two outer additions:
  the reference adds the bias before the second product, the kernel after it. Addition on the extended reals is
  commutative and associative (no finiteness is needed for that), so the two orders agree: `add_bias_last`.

  The last step is followed by a row-wise log-softmax: with `M p` the maximum of row `p` (taken from the
  pattern of minus infinity) and `S p = ∑ k, exp (h p k - M p)`, the entry is `(h p q - M p) - log (S p)`.
-/
import Idealize.ShloMosaic.PureOps.Ideal
import Idealize.ShloMosaic.PureOps.Ideal.Laws
import Idealize.ShloMosaic.Lib.ValueIdx
import Idealize.ShloMosaic.Lib.ValueLayout

noncomputable section

namespace Cert.Gcn

open Idealize.ShloMosaic Idealize.ShloMosaic.ValueIdx

abbrev Nodes128 : Shape := ⟨2, ![50000, 128]⟩
abbrev Nodes64 : Shape := ⟨2, ![50000, 64]⟩
abbrev Sq128 : Shape := ⟨2, ![128, 128]⟩
abbrev Out64 : Shape := ⟨2, ![128, 64]⟩
abbrev Vec128 : Shape := ⟨1, ![128]⟩
abbrev Vec64 : Shape := ⟨1, ![64]⟩

/-- The pattern of the float zero, kept as a pattern: both programs compare against the same word. -/
abbrev zeroF : EReal := Ideal.ofBits .f32 0x00000000#32
/-- The pattern of minus infinity, kept as a pattern: the row maximum starts from it on both sides. -/
abbrev negInfF : EReal := Ideal.ofBits .f32 0xFF800000#32

/-- The two outer additions of a dense step in either order. -/
theorem add_bias_last (s t b : EReal) : s + t + b = s + b + t := add_right_comm s t b

/-- Entry `(p, q)` of a dense step into 128 features. -/
def dense128At (agg x : FVec Ideal Nodes128 .f32) (w : FVec Ideal Sq128 .f32) (b : FVec Ideal Vec128 .f32)
    (r : FVec Ideal Sq128 .f32) (p : Fin 50000) (q : Fin 128) : EReal :=
  max ((∑ k : Fin 128, agg (ix2 p k) * w (ix2 k q)) + b (ix1 q) + ∑ k : Fin 128, x (ix2 p k) * r (ix2 k q)) zeroF

/-- A dense step into 128 features, as one array. -/
def dense128 (agg x : FVec Ideal Nodes128 .f32) (w : FVec Ideal Sq128 .f32) (b : FVec Ideal Vec128 .f32)
    (r : FVec Ideal Sq128 .f32) : FVec Ideal Nodes128 .f32 :=
  fun i => dense128At agg x w b r (i 0) (i 1)

theorem dense128_apply (agg x : FVec Ideal Nodes128 .f32) (w : FVec Ideal Sq128 .f32) (b : FVec Ideal Vec128 .f32)
    (r : FVec Ideal Sq128 .f32) (p : Fin 50000) (q : Fin 128) :
    dense128 agg x w b r (ix2 p q) = dense128At agg x w b r p q := rfl

/-- Entry `(p, q)` of a dense step into 64 features. -/
def dense64At (agg x : FVec Ideal Nodes128 .f32) (w : FVec Ideal Out64 .f32) (b : FVec Ideal Vec64 .f32)
    (r : FVec Ideal Out64 .f32) (p : Fin 50000) (q : Fin 64) : EReal :=
  max ((∑ k : Fin 128, agg (ix2 p k) * w (ix2 k q)) + b (ix1 q) + ∑ k : Fin 128, x (ix2 p k) * r (ix2 k q)) zeroF

/-- A dense step into 64 features, as one array. -/
def dense64 (agg x : FVec Ideal Nodes128 .f32) (w : FVec Ideal Out64 .f32) (b : FVec Ideal Vec64 .f32)
    (r : FVec Ideal Out64 .f32) : FVec Ideal Nodes64 .f32 :=
  fun i => dense64At agg x w b r (i 0) (i 1)

theorem dense64_apply (agg x : FVec Ideal Nodes128 .f32) (w : FVec Ideal Out64 .f32) (b : FVec Ideal Vec64 .f32)
    (r : FVec Ideal Out64 .f32) (p : Fin 50000) (q : Fin 64) :
    dense64 agg x w b r (ix2 p q) = dense64At agg x w b r p q := rfl

/-- The maximum of row `p`, from the pattern of minus infinity. -/
def rowMax (h : FVec Ideal Nodes64 .f32) (p : Fin 50000) : EReal :=
  (Finset.univ : Finset (Fin 64)).fold max negInfF fun k => h (ix2 p k)

/-- The sum over row `p` of the exponentials of the entries less the row's maximum. -/
def rowExpSum (h : FVec Ideal Nodes64 .f32) (p : Fin 50000) : EReal :=
  ∑ k : Fin 64, Ideal.exp (h (ix2 p k) - rowMax h p)

/-- Entry `(p, q)` of the row-wise log-softmax. -/
def logSoftmaxAt (h : FVec Ideal Nodes64 .f32) (p : Fin 50000) (q : Fin 64) : EReal :=
  h (ix2 p q) - rowMax h p - Ideal.log (rowExpSum h p)

/-- The row-wise log-softmax, as one array. -/
def logSoftmax (h : FVec Ideal Nodes64 .f32) : FVec Ideal Nodes64 .f32 :=
  fun i => logSoftmaxAt h (i 0) (i 1)

theorem logSoftmax_apply (h : FVec Ideal Nodes64 .f32) (p : Fin 50000) (q : Fin 64) :
    logSoftmax h (ix2 p q) = logSoftmaxAt h p q := rfl

/-- A fold of `max` is at least the value it starts from, so taking the maximum with that value again changes nothing. -/
theorem max_start_fold {n : ℕ} (b : EReal) (f : Fin n → EReal) :
    max b ((Finset.univ : Finset (Fin n)).fold max b f) = (Finset.univ : Finset (Fin n)).fold max b f :=
  max_eq_right ((Finset.le_fold_max b).mpr (Or.inl le_rfl))

/-! ## The same step with the bias given as a row and added last (the kernel's order) -/

abbrev Row128 : Shape := ⟨2, ![1, 128]⟩
abbrev Row64 : Shape := ⟨2, ![1, 64]⟩

/-- A dense step into 128 features, the bias a `[1, 128]` row added after the second product. -/
def dense128K (agg x : FVec Ideal Nodes128 .f32) (w : FVec Ideal Sq128 .f32) (b : FVec Ideal Row128 .f32)
    (r : FVec Ideal Sq128 .f32) : FVec Ideal Nodes128 .f32 :=
  fun i => max ((∑ k : Fin 128, agg (ix2 (i 0) k) * w (ix2 k (i 1))) + (∑ k : Fin 128, x (ix2 (i 0) k) * r (ix2 k (i 1)))
    + b (ix2 (0 : Fin 1) (i 1))) zeroF

/-- A dense step into 64 features, the bias a `[1, 64]` row added after the second product. -/
def dense64K (agg x : FVec Ideal Nodes128 .f32) (w : FVec Ideal Out64 .f32) (b : FVec Ideal Row64 .f32)
    (r : FVec Ideal Out64 .f32) : FVec Ideal Nodes64 .f32 :=
  fun i => max ((∑ k : Fin 128, agg (ix2 (i 0) k) * w (ix2 k (i 1))) + (∑ k : Fin 128, x (ix2 (i 0) k) * r (ix2 k (i 1)))
    + b (ix2 (0 : Fin 1) (i 1))) zeroF

/-- With the bias vector cast to a row, the kernel's order of the additions gives the same array. -/
theorem dense128K_eq (agg x : FVec Ideal Nodes128 .f32) (w : FVec Ideal Sq128 .f32) (b : FVec Ideal Vec128 .f32)
    (r : FVec Ideal Sq128 .f32) (h : Vec128.ShapeCasts Row128) :
    dense128K agg x w (shapeCast Row128 b h) r = dense128 agg x w b r := by
  funext i
  obtain ⟨p, q, rfl⟩ : ∃ (p : Fin 50000) (q : Fin 128), i = ix2 p q := ⟨i 0, i 1, eq_ix2 i⟩
  show max (_ + _ + shapeCast Row128 b h (ix2 (0 : Fin 1) q)) zeroF = dense128At agg x w b r p q
  rw [shapeCast_a_1a_apply, add_bias_last]
  rfl

theorem dense64K_eq (agg x : FVec Ideal Nodes128 .f32) (w : FVec Ideal Out64 .f32) (b : FVec Ideal Vec64 .f32)
    (r : FVec Ideal Out64 .f32) (h : Vec64.ShapeCasts Row64) :
    dense64K agg x w (shapeCast Row64 b h) r = dense64 agg x w b r := by
  funext i
  obtain ⟨p, q, rfl⟩ : ∃ (p : Fin 50000) (q : Fin 64), i = ix2 p q := ⟨i 0, i 1, eq_ix2 i⟩
  show max (_ + _ + shapeCast Row64 b h (ix2 (0 : Fin 1) q)) zeroF = dense64At agg x w b r p q
  rw [shapeCast_a_1a_apply, add_bias_last]
  rfl

/-- Row `p` of block `t` of 2000 rows is row `t * 2000 + p` of the array. -/
def rowAt (t : ℕ) (ht : t < 25) (p : Fin 2000) : Fin 50000 := ⟨t * 2000 + p.val, by have := p.isLt; omega⟩

end Cert.Gcn

end
-- ==== Proof.LibColumnLayout.lean ====
/-
  Two layout operations read at an index given by coordinates, for arrays that keep a reduced axis as a unit LAST axis
  (a row statistic kept as a column): a vector cast to a column, and a column broadcast over the lanes. They complete
  the leading-unit-axis casts and the row broadcast of the library's Lib/ValueLayout.lean, in the same style, and depend
  on nothing but the library: any certificate whose body takes a row sum with the reduced axis kept can use them.
-/
import Idealize.ShloMosaic.Lib.ValueLayout
import Idealize.ShloMosaic.Lib.ValueIdx

namespace Cert.LibColumnLayout

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnLayout
-- ==== Proof.Body.lean ====
/-
  What each launch's body stores, read at one entry of its block, on the extended reals.

  A body loads a block of 2000 rows of the aggregated features and of the nodes' own features, the two weight
  matrices and the bias row, and stores `max (agg · W + x · R + b) 0`; the changes of float format on the way into
  the products are the identity on the extended reals, and a product into the zero accumulator is the plain sum
  over the 128 contracted features. The last launch's body goes on, row by row: the row's maximum `M` from minus
  infinity, the sum `S` of the exponentials of the entries less `M`, and `(y - M) - log S` at each entry.
-/
import proofs.«120820_j49323404427977_2_alg».proof.Proof.Gen.KernelIdeal.Skeleton
import proofs.«120820_j49323404427977_2_alg».proof.Proof.Spec
import proofs.«120820_j49323404427977_2_alg».proof.Proof.LibColumnLayout
import Idealize.ShloMosaic.Lib.ValueLayout
import Idealize.ShloMosaic.Lib.Pipeline.Value
import Idealize.ShloMosaic.PureOps.Ideal.Laws

noncomputable section

namespace Cert.Gcn.Body

open Idealize.ShloMosaic Idealize.ShloMosaic.ValueIdx Cert.KernelIdeal Cert.KernelIdeal.Gen Cert.Gcn Cert.LibColumnLayout

theorem mm128_lhs0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm128_lhs1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
theorem mm128_rhs0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
theorem mm128_rhs1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product read at an entry: the plain sum over the contracted axis of the row of the left factor against the
    column of the right one. -/
theorem mm128_apply {φ₁ φ₂ : FTy} (lhs : FVec Ideal S2000x128 φ₁) (rhs : FVec Ideal S128x128 φ₂) (p : Fin 2000) (q : Fin 128) :
    matmul dot_S2000x128_S128x128_S2000x128_1_0_0_1_n_n none lhs rhs (constant (F := Ideal) S2000x128 .f32 0x00000000#32) (ix2 p q) = ∑ k : Fin 128, lhs (ix2 p k) * rhs (ix2 k q) := by
  show FloatOps.matmul dot_S2000x128_S128x128_S2000x128_1_0_0_1_n_n none lhs rhs (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mm128_lhs0 _ _
    | ⟨1, _⟩ => exact (mm128_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mm128_rhs0 _ _).trans hk
    | ⟨1, _⟩ => exact mm128_rhs1 _ _)
  rw [el, er]

theorem mm64_lhs0 (i : S2000x64.Idx) (c : dot_S2000x128_S128x64_S2000x64_1_0_0_1_n_n.contr.Idx) : (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mm64_lhs1 (i : S2000x64.Idx) (c : dot_S2000x128_S128x64_S2000x64_1_0_0_1_n_n.contr.Idx) : (dot_S2000x128_S128x64_S2000x64_1_0_0_1_n_n.lhsIdx i c 1).val = (c ⟨0, by decide⟩).val :=
  dot_S2000x128_S128x64_S2000x64_1_0_0_1_n_n.lhsIdx_val_of_single rfl i c
theorem mm64_rhs0 (i : S2000x64.Idx) (c : dot_S2000x128_S128x64_S2000x64_1_0_0_1_n_n.contr.Idx) : (dot_S2000x128_S128x64_S2000x64_1_0_0_1_n_n.rhsIdx i c 0).val = (c ⟨0, by decide⟩).val :=
  dot_S2000x128_S128x64_S2000x64_1_0_0_1_n_n.rhsIdx_val_of_single rfl i c
theorem mm64_rhs1 (i : S2000x64.Idx) (c : dot_S2000x128_S128x64_S2000x64_1_0_0_1_n_n.contr.Idx) : (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product read at an entry: the plain sum over the contracted axis of the row of the left factor against the
    column of the right one. -/
theorem mm64_apply {φ₁ φ₂ : FTy} (lhs : FVec Ideal S2000x128 φ₁) (rhs : FVec Ideal S128x64 φ₂) (p : Fin 2000) (q : Fin 64) :
    matmul dot_S2000x128_S128x64_S2000x64_1_0_0_1_n_n none lhs rhs (constant (F := Ideal) S2000x64 .f32 0x00000000#32) (ix2 p q) = ∑ k : Fin 128, lhs (ix2 p k) * rhs (ix2 k q) := by
  show FloatOps.matmul dot_S2000x128_S128x64_S2000x64_1_0_0_1_n_n none lhs rhs (constant S2000x64 .f32 0x00000000#32) (ix2 p q) = _
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact mm64_lhs0 _ _
    | ⟨1, _⟩ => exact (mm64_lhs1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (mm64_rhs0 _ _).trans hk
    | ⟨1, _⟩ => exact mm64_rhs1 _ _)
  rw [el, er]

/-- Entry `(p, q)` of a block of the dense step into 128 features, the bias a row added last. -/
def blockDense128 (a x : Vec Ideal S2000x128 .f32) (w r : Vec Ideal S128x128 .f32) (b : Vec Ideal S1x128 .f32) (p : Fin 2000) (q : Fin 128) : EReal :=
  max ((∑ k : Fin 128, a (ix2 p k) * w (ix2 k q)) + (∑ k : Fin 128, x (ix2 p k) * r (ix2 k q)) + b (ix2 (0 : Fin 1) q)) zeroF

/-- Entry `(p, q)` of a block of the dense step into 64 features, the bias a row added last. -/
def blockDense64 (a x : Vec Ideal S2000x128 .f32) (w r : Vec Ideal S128x64 .f32) (b : Vec Ideal S1x64 .f32) (p : Fin 2000) (q : Fin 64) : EReal :=
  max ((∑ k : Fin 128, a (ix2 p k) * w (ix2 k q)) + (∑ k : Fin 128, x (ix2 p k) * r (ix2 k q)) + b (ix2 (0 : Fin 1) q)) zeroF

/-- What the first launch's body stores at `(p, q)` of its block. -/
theorem k0_pay1_apply (a x : Vec Ideal S2000x128 .f32) (w r : Vec Ideal S128x128 .f32) (b : Vec Ideal S1x128 .f32) (p : Fin 2000) (q : Fin 128) :
    k0_pay1 (F := Ideal) a x w r b (ix2 p q) = blockDense128 a x w r b p q := by
  unfold k0_pay1 blockDense128
  simp only [maximumf_apply, addf_apply, broadcast_apply]
  rw [mm128_apply, mm128_apply, broadcastTo_1b_ab_apply]
  simp only [truncf_apply, shapeCast_self]
  rfl

/-- What the second launch's body stores at `(p, q)` of its block. -/
theorem k1_pay1_apply (a x : Vec Ideal S2000x128 .f32) (w r : Vec Ideal S128x128 .f32) (b : Vec Ideal S1x128 .f32) (p : Fin 2000) (q : Fin 128) :
    k1_pay1 (F := Ideal) a x w r b (ix2 p q) = blockDense128 a x w r b p q := by
  unfold k1_pay1 blockDense128
  simp only [maximumf_apply, addf_apply, broadcast_apply]
  rw [mm128_apply, mm128_apply, broadcastTo_1b_ab_apply]
  simp only [truncf_apply, shapeCast_self]
  rfl

/-- The reduced axis's coordinate inserted into a row's index is the entry's index. -/
theorem lift_row (p : Fin 2000) (k : Fin 64) : reduces_S2000x64_S2000.lift (ix1 p) k = ix2 p k :=
  funext fun a => Fin.ext (by match a with | ⟨0, _⟩ => rfl | ⟨1, _⟩ => rfl)

/-- A block's sum over the lanes, read at row `p`: the sum of the row's 64 entries. -/
theorem laneSum_apply (src : FVec Ideal S2000x64 .f32) (hφ : FKind.Formats .f32)
    (hacc : (0x00000000#32 : BitVec FTy.f32.bits) = FKind.add.neutral .f32 hφ) (p : Fin 2000) :
    multiReduction .add [1] S2000 src 0x00000000#32 reduces_S2000x64_S2000 hφ hacc (ix1 p) = ∑ k : Fin 64, src (ix2 p k) :=
  (Ideal.multiReduction_add_single src 0x00000000#32 reduces_S2000x64_S2000 hφ hacc (ix1 p)).trans
    (Finset.sum_congr rfl fun k _ => congrArg src (lift_row p k))

/-- A block's maximum over the lanes, read at row `p`: the fold of `max` over the row's 64 entries from minus infinity. -/
theorem laneMax_apply (src : FVec Ideal S2000x64 .f32) (hφ : FKind.Formats .f32)
    (hacc : (0xFF800000#32 : BitVec FTy.f32.bits) = FKind.maximumf.neutral .f32 hφ) (p : Fin 2000) :
    multiReduction .maximumf [1] S2000 src 0xFF800000#32 reduces_S2000x64_S2000 hφ hacc (ix1 p)
      = (Finset.univ : Finset (Fin 64)).fold max negInfF fun k => src (ix2 p k) :=
  (Ideal.multiReduction_maximumf_single src 0xFF800000#32 reduces_S2000x64_S2000 hφ hacc (ix1 p)).trans
    (congrArg (fun f => (Finset.univ : Finset (Fin 64)).fold max negInfF f) (funext fun k => congrArg src (lift_row p k)))

/-- Entry `(p, q)` of the row-wise log-softmax of a block given by its entries. -/
def blockLogSoftmax (h : Fin 2000 → Fin 64 → EReal) (p : Fin 2000) (q : Fin 64) : EReal :=
  h p q - ((Finset.univ : Finset (Fin 64)).fold max negInfF fun k => h p k)
    - Ideal.log (∑ k : Fin 64, Ideal.exp (h p k - (Finset.univ : Finset (Fin 64)).fold max negInfF fun k => h p k))

/-- The tail of the last launch's body — the row maximum kept as a column and spread over the lanes, the exponentials'
    lane sum kept as a column, its logarithm spread over the lanes — read at `(p, q)`. -/
theorem logSoftmaxTail_apply (y : FVec Ideal S2000x64 .f32) (p : Fin 2000) (q : Fin 64) :
    subf (subf y (broadcastTo S2000x64 (shapeCast S2000x1 (multiReduction .maximumf [1] S2000 y 0xFF800000#32 reduces_S2000x64_S2000 (.inl rfl) rfl) shapeCasts_S2000_S2000x1) broadcasts_S2000x1_S2000x64))
      (broadcastTo S2000x64 (log (shapeCast S2000x1 (multiReduction .add [1] S2000
        (exp (subf y (broadcastTo S2000x64 (shapeCast S2000x1 (multiReduction .maximumf [1] S2000 y 0xFF800000#32 reduces_S2000x64_S2000 (.inl rfl) rfl) shapeCasts_S2000_S2000x1) broadcasts_S2000x1_S2000x64)))
        0x00000000#32 reduces_S2000x64_S2000 (.inl rfl) rfl) shapeCasts_S2000_S2000x1)) broadcasts_S2000x1_S2000x64) (ix2 p q)
      = blockLogSoftmax (fun p q => y (ix2 p q)) p q := by
  have hM : ∀ (p : Fin 2000) (c : Fin 64), broadcastTo S2000x64 (shapeCast S2000x1 (multiReduction .maximumf [1] S2000 y 0xFF800000#32 reduces_S2000x64_S2000 (.inl rfl) rfl) shapeCasts_S2000_S2000x1) broadcasts_S2000x1_S2000x64 (ix2 p c)
      = (Finset.univ : Finset (Fin 64)).fold max negInfF fun k => y (ix2 p k) := fun p c =>
    (broadcastTo_a1_ab_apply _ _ p c).trans ((shapeCast_a_a1_apply _ _ p 0).trans (laneMax_apply y _ _ p))
  unfold blockLogSoftmax
  rw [subf_apply, subf_apply, hM]
  refine congrArg (fun z => y (ix2 p q) - _ - z) ?_
  refine (broadcastTo_a1_ab_apply _ _ p q).trans ?_
  show Ideal.log (shapeCast S2000x1 _ shapeCasts_S2000_S2000x1 (ix2 p (0 : Fin 1))) = _
  refine congrArg Ideal.log ((shapeCast_a_a1_apply _ _ p 0).trans ((laneSum_apply _ _ _ p).trans ?_))
  refine Finset.sum_congr rfl fun k _ => ?_
  show Ideal.exp (subf y _ (ix2 p k)) = _
  rw [subf_apply, hM]

/-- What the last launch's body stores at `(p, q)` of its block. -/
theorem k2_pay1_apply (a x : Vec Ideal S2000x128 .f32) (w r : Vec Ideal S128x64 .f32) (b : Vec Ideal S1x64 .f32) (p : Fin 2000) (q : Fin 64) :
    k2_pay1 (F := Ideal) a x w r b (ix2 p q) = blockLogSoftmax (blockDense64 a x w r b) p q := by
  unfold k2_pay1
  refine (logSoftmaxTail_apply _ p q).trans ?_
  refine congrArg (fun h => blockLogSoftmax h p q) (funext fun p => funext fun q => ?_)
  unfold blockDense64
  simp only [maximumf_apply, addf_apply, broadcast_apply]
  rw [mm64_apply, mm64_apply, broadcastTo_1b_ab_apply]
  simp only [truncf_apply, shapeCast_self]
  rfl

end Cert.Gcn.Body

end
-- ==== Proof.Region0.lean ====
/-
  Launch 0 of the dense step, from its blocks to its whole result array.

  The launch runs over 25 blocks of 2000 rows. At block `t` the body reads rows `2000 t … 2000 t + 1999` of the
  aggregated features and of the nodes' own features, the two weight matrices and the bias row whole, and writes rows
  `2000 t … 2000 t + 1999` of the result. What it writes there is, entry by entry, the dense step of the arrays as the
  launch finds them;
  the 25 blocks tile the 50000 rows, so the result array is that function of the arrays everywhere.
-/
import proofs.«120820_j49323404427977_2_alg».proof.Proof.Gen.KernelIdeal.Frame
import proofs.«120820_j49323404427977_2_alg».proof.Proof.Body
import Idealize.ShloMosaic.Lib.Pipeline.Value

set_option maxRecDepth 16384

noncomputable section

namespace Cert.Gcn.Region0

open Cert.KernelIdeal Cert.KernelIdeal.Gen Cert.Gcn Cert.Gcn.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided once over the 25 points: the row-blocked windows sit at block `t`, the others at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := by
  have hN : grid0.N = 25 := N_0
  have h : t.val < grid0.N := t.isLt
  omega

/-! ## The blocks the body loads, read where the result's block says -/

theorem read_agg (c : Dev nD) (t : Fin cfg0.N) (ht : t.val < 25) (p : Fin 2000) (k : Fin 128) :
    iblk0 V c 0 t (ix2 p k) = V c main_v33 (ix2 (rowAt t.val ht p) k) := by
  obtain ⟨e00, e01, -⟩ := idx_facts t
  show V c main_v33 (((cfg0.win 0).blk t).view.emb (ix2 p k)) = V c main_v33 (ix2 (rowAt t.val ht p) k)
  refine congrArg (V c main_v33) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem read_x (c : Dev nD) (t : Fin cfg0.N) (ht : t.val < 25) (p : Fin 2000) (k : Fin 128) :
    iblk0 V c 1 t (ix2 p k) = V c main_arg0 (ix2 (rowAt t.val ht p) k) := by
  obtain ⟨-, -, e10, e11, -⟩ := idx_facts t
  show V c main_arg0 (((cfg0.win 1).blk t).view.emb (ix2 p k)) = V c main_arg0 (ix2 (rowAt t.val ht p) k)
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem read_w (c : Dev nD) (t : Fin cfg0.N) (k : Fin 128) (q : Fin 128) :
    iblk0 V c 2 t (ix2 k q) = V c main_arg2 (ix2 k q) := by
  obtain ⟨-, -, -, -, e20, e21, -⟩ := idx_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_b (c : Dev nD) (t : Fin cfg0.N) (q : Fin 128) :
    iblk0 V c 3 t (ix2 (0 : Fin 1) q) = V c main_v34 (ix2 (0 : Fin 1) q) := by
  obtain ⟨-, -, -, -, -, -, e30, e31, -⟩ := idx_facts t
  show V c main_v34 (((cfg0.win 3).blk t).view.emb (ix2 (0 : Fin 1) q)) = V c main_v34 (ix2 (0 : Fin 1) q)
  refine congrArg (V c main_v34) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem read_r (c : Dev nD) (t : Fin cfg0.N) (k : Fin 128) (q : Fin 128) :
    iblk0 V c 4 t (ix2 k q) = V c main_arg4 (ix2 k q) := by
  obtain ⟨-, -, -, -, -, -, -, -, e40, e41, -⟩ := idx_facts t
  show V c main_arg4 (((cfg0.win 4).blk t).view.emb (ix2 k q)) = V c main_arg4 (ix2 k q)
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Entry `(p, q)` of the result's block `t` is entry `(2000 t + p, q)` of the result array. -/
theorem emb_out (t : Fin cfg0.N) (ht : t.val < 25) (p : Fin 2000) (q : Fin 128) :
    ((cfg0.win 5).blk t).view.emb (ix2 p q) = ix2 (rowAt t.val ht p) q := by
  obtain ⟨-, -, -, -, -, -, -, -, -, -, e50, e51⟩ := idx_facts t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-! ## What a point writes back, the cover, the array -/

/-- What point `t` writes back is block `t` of the dense step of the arrays as the launch finds them. -/
theorem flushed_eq (c : Dev nD) (t : Fin cfg0.N) :
    (dat0 V c).flushed 5 t = ((cfg0.win 5).blk t).view.read (Elt Ideal) (dense128K (V c main_v33) (V c main_arg0) (V c main_arg2) (V c main_v34) (V c main_arg4)) := by
  have ht : t.val < 25 := point_lt t
  show (cfg0.win 5).cut (grid0.coords t) ((dat0 V c).after 5 t) = _
  rw [after0_5]
  unfold out0_5
  rw [View.canon_unit_zero origin]
  simp only [View.ld_unit_zero (S := S2000x128) origin, View.ld_unit_zero (S := S128x128) origin, View.ld_unit_zero (S := S1x128) origin]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
    = (dense128K (V c main_v33) (V c main_arg0) (V c main_arg2) (V c main_v34) (V c main_arg4)) (((cfg0.win 5).blk t).view.emb (ix2 p q))
  rw [emb_out t ht p q]
  refine (k0_pay1_apply _ _ _ _ _ p q).trans ?_
  show blockDense128 _ _ _ _ _ p q = max _ zeroF
  unfold blockDense128
  simp only [read_agg V c t ht, read_x V c t ht, read_w V c t, read_r V c t, read_b V c t]

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v35).slice (win0_5.rect t)).set ↔ _
  rw [View.set_slice_whole, Rect.mem_set_unit]
  exact Iff.rfl

/-- Every row of the result is in some point's block: row `i` in block `i / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  have hlt : (i 0).val / 2000 < cfg0.N := by show _ < grid0.N; omega
  obtain ⟨-, -, -, -, -, -, -, -, -, -, e50, e51⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [e51]; omega

/-- The result array after the launch. -/
theorem result (c : Dev nD) : (dat0 V c).arrAt 5 cfg0.N = (dense128K (V c main_v33) (V c main_arg0) (V c main_arg2) (V c main_v34) (V c main_arg4)) :=
  (dat0 V c).arrAt_eq_of_cover 5 _ (fun t _ => flushed_eq V c t) cover

end Cert.Gcn.Region0

end
-- ==== Proof.Region1.lean ====
/-
  Launch 1 of the dense step, from its blocks to its whole result array.

  The launch runs over 25 blocks of 2000 rows. At block `t` the body reads rows `2000 t … 2000 t + 1999` of the
  aggregated features and of the nodes' own features, the two weight matrices and the bias row whole, and writes rows
  `2000 t … 2000 t + 1999` of the result. What it writes there is, entry by entry, the dense step of the arrays as the
  launch finds them;
  the 25 blocks tile the 50000 rows, so the result array is that function of the arrays everywhere.
-/
import proofs.«120820_j49323404427977_2_alg».proof.Proof.Gen.KernelIdeal.Frame
import proofs.«120820_j49323404427977_2_alg».proof.Proof.Body
import Idealize.ShloMosaic.Lib.Pipeline.Value

set_option maxRecDepth 16384

noncomputable section

namespace Cert.Gcn.Region1

open Cert.KernelIdeal Cert.KernelIdeal.Gen Cert.Gcn Cert.Gcn.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided once over the 25 points: the row-blocked windows sit at block `t`, the others at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 25 := by
  have hN : grid1.N = 25 := N_1
  have h : t.val < grid1.N := t.isLt
  omega

/-! ## The blocks the body loads, read where the result's block says -/

theorem read_agg (c : Dev nD) (t : Fin cfg1.N) (ht : t.val < 25) (p : Fin 2000) (k : Fin 128) :
    iblk1 V c 0 t (ix2 p k) = V c main_v48 (ix2 (rowAt t.val ht p) k) := by
  obtain ⟨e00, e01, -⟩ := idx_facts t
  show V c main_v48 (((cfg1.win 0).blk t).view.emb (ix2 p k)) = V c main_v48 (ix2 (rowAt t.val ht p) k)
  refine congrArg (V c main_v48) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem read_x (c : Dev nD) (t : Fin cfg1.N) (ht : t.val < 25) (p : Fin 2000) (k : Fin 128) :
    iblk1 V c 1 t (ix2 p k) = V c main_v35 (ix2 (rowAt t.val ht p) k) := by
  obtain ⟨-, -, e10, e11, -⟩ := idx_facts t
  show V c main_v35 (((cfg1.win 1).blk t).view.emb (ix2 p k)) = V c main_v35 (ix2 (rowAt t.val ht p) k)
  refine congrArg (V c main_v35) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

theorem read_w (c : Dev nD) (t : Fin cfg1.N) (k : Fin 128) (q : Fin 128) :
    iblk1 V c 2 t (ix2 k q) = V c main_arg5 (ix2 k q) := by
  obtain ⟨-, -, -, -, e20, e21, -⟩ := idx_facts t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read_b (c : Dev nD) (t : Fin cfg1.N) (q : Fin 128) :
    iblk1 V c 3 t (ix2 (0 : Fin 1) q) = V c main_v49 (ix2 (0 : Fin 1) q) := by
  obtain ⟨-, -, -, -, -, -, e30, e31, -⟩ := idx_facts t
  show V c main_v49 (((cfg1.win 3).blk t).view.emb (ix2 (0 : Fin 1) q)) = V c main_v49 (ix2 (0 : Fin 1) q)
  refine congrArg (V c main_v49) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem read_r (c : Dev nD) (t : Fin cfg1.N) (k : Fin 128) (q : Fin 128) :
    iblk1 V c 4 t (ix2 k q) = V c main_arg7 (ix2 k q) := by
  obtain ⟨-, -, -, -, -, -, -, -, e40, e41, -⟩ := idx_facts t
  show V c main_arg7 (((cfg1.win 4).blk t).view.emb (ix2 k q)) = V c main_arg7 (ix2 k q)
  refine congrArg (V c main_arg7) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Entry `(p, q)` of the result's block `t` is entry `(2000 t + p, q)` of the result array. -/
theorem emb_out (t : Fin cfg1.N) (ht : t.val < 25) (p : Fin 2000) (q : Fin 128) :
    ((cfg1.win 5).blk t).view.emb (ix2 p q) = ix2 (rowAt t.val ht p) q := by
  obtain ⟨-, -, -, -, -, -, -, -, -, -, e50, e51⟩ := idx_facts t
  refine funext fun a => Fin.ext ?_
  match a with
  | ⟨0, _⟩ => show win1_5.index t (0 : Fin 2) * 2000 + 1 * p.val = t.val * 2000 + p.val; omega
  | ⟨1, _⟩ => show win1_5.index t (1 : Fin 2) * 128 + 1 * q.val = q.val; omega

/-! ## What a point writes back, the cover, the array -/

/-- What point `t` writes back is block `t` of the dense step of the arrays as the launch finds them. -/
theorem flushed_eq (c : Dev nD) (t : Fin cfg1.N) :
    (dat1 V c).flushed 5 t = ((cfg1.win 5).blk t).view.read (Elt Ideal) (dense128K (V c main_v48) (V c main_v35) (V c main_arg5) (V c main_v49) (V c main_arg7)) := by
  have ht : t.val < 25 := point_lt t
  show (cfg1.win 5).cut (grid1.coords t) ((dat1 V c).after 5 t) = _
  rw [after1_5]
  unfold out1_5
  rw [View.canon_unit_zero origin]
  simp only [View.ld_unit_zero (S := S2000x128) origin, View.ld_unit_zero (S := S128x128) origin, View.ld_unit_zero (S := S1x128) origin]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 4 t) (iblk1 V c 3 t) (ix2 p q)
    = (dense128K (V c main_v48) (V c main_v35) (V c main_arg5) (V c main_v49) (V c main_arg7)) (((cfg1.win 5).blk t).view.emb (ix2 p q))
  rw [emb_out t ht p q]
  refine (k1_pay1_apply _ _ _ _ _ p q).trans ?_
  show blockDense128 _ _ _ _ _ p q = max _ zeroF
  unfold blockDense128
  simp only [read_agg V c t ht, read_x V c t ht, read_w V c t, read_r V c t, read_b V c t]

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v50).slice (win1_5.rect t)).set ↔ _
  rw [View.set_slice_whole, Rect.mem_set_unit]
  exact Iff.rfl

/-- Every row of the result is in some point's block: row `i` in block `i / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  have hlt : (i 0).val / 2000 < cfg1.N := by show _ < grid1.N; omega
  obtain ⟨-, -, -, -, -, -, -, -, -, -, e50, e51⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e51]; omega

/-- The result array after the launch. -/
theorem result (c : Dev nD) : (dat1 V c).arrAt 5 cfg1.N = (dense128K (V c main_v48) (V c main_v35) (V c main_arg5) (V c main_v49) (V c main_arg7)) :=
  (dat1 V c).arrAt_eq_of_cover 5 _ (fun t _ => flushed_eq V c t) cover

end Cert.Gcn.Region1

end
-- ==== Proof.Region2.lean ====
/-
  Launch 2 of the dense step, from its blocks to its whole result array.

  The launch runs over 25 blocks of 2000 rows. At block `t` the body reads rows `2000 t … 2000 t + 1999` of the
  aggregated features and of the nodes' own features, the two weight matrices and the bias row whole, and writes rows
  `2000 t … 2000 t + 1999` of the result. What it writes there is, entry by entry, the dense step of the arrays as the
  launch finds them followed by the row-wise log-softmax (a row's maximum and sum involve that row only, and a block holds whole rows);
  the 25 blocks tile the 50000 rows, so the result array is that function of the arrays everywhere.
-/
import proofs.«120820_j49323404427977_2_alg».proof.Proof.Gen.KernelIdeal.Frame
import proofs.«120820_j49323404427977_2_alg».proof.Proof.Body
import Idealize.ShloMosaic.Lib.Pipeline.Value

set_option maxRecDepth 16384

noncomputable section

namespace Cert.Gcn.Region2

open Cert.KernelIdeal Cert.KernelIdeal.Gen Cert.Gcn Cert.Gcn.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided once over the 25 points: the row-blocked windows sit at block `t`, the others at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 25 := by
  have hN : grid2.N = 25 := N_2
  have h : t.val < grid2.N := t.isLt
  omega

/-! ## The blocks the body loads, read where the result's block says -/

theorem read_agg (c : Dev nD) (t : Fin cfg2.N) (ht : t.val < 25) (p : Fin 2000) (k : Fin 128) :
    iblk2 V c 0 t (ix2 p k) = V c main_v63 (ix2 (rowAt t.val ht p) k) := by
  obtain ⟨e00, e01, -⟩ := idx_facts t
  show V c main_v63 (((cfg2.win 0).blk t).view.emb (ix2 p k)) = V c main_v63 (ix2 (rowAt t.val ht p) k)
  refine congrArg (V c main_v63) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

theorem read_x (c : Dev nD) (t : Fin cfg2.N) (ht : t.val < 25) (p : Fin 2000) (k : Fin 128) :
    iblk2 V c 1 t (ix2 p k) = V c main_v50 (ix2 (rowAt t.val ht p) k) := by
  obtain ⟨-, -, e10, e11, -⟩ := idx_facts t
  show V c main_v50 (((cfg2.win 1).blk t).view.emb (ix2 p k)) = V c main_v50 (ix2 (rowAt t.val ht p) k)
  refine congrArg (V c main_v50) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

theorem read_w (c : Dev nD) (t : Fin cfg2.N) (k : Fin 128) (q : Fin 64) :
    iblk2 V c 2 t (ix2 k q) = V c main_arg8 (ix2 k q) := by
  obtain ⟨-, -, -, -, e20, e21, -⟩ := idx_facts t
  show V c main_arg8 (((cfg2.win 2).blk t).view.emb (ix2 k q)) = V c main_arg8 (ix2 k q)
  refine congrArg (V c main_arg8) (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

theorem read_b (c : Dev nD) (t : Fin cfg2.N) (q : Fin 64) :
    iblk2 V c 3 t (ix2 (0 : Fin 1) q) = V c main_v64 (ix2 (0 : Fin 1) q) := by
  obtain ⟨-, -, -, -, -, -, e30, e31, -⟩ := idx_facts t
  show V c main_v64 (((cfg2.win 3).blk t).view.emb (ix2 (0 : Fin 1) q)) = V c main_v64 (ix2 (0 : Fin 1) q)
  refine congrArg (V c main_v64) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

theorem read_r (c : Dev nD) (t : Fin cfg2.N) (k : Fin 128) (q : Fin 64) :
    iblk2 V c 4 t (ix2 k q) = V c main_arg10 (ix2 k q) := by
  obtain ⟨-, -, -, -, -, -, -, -, e40, e41, -⟩ := idx_facts t
  show V c main_arg10 (((cfg2.win 4).blk t).view.emb (ix2 k q)) = V c main_arg10 (ix2 k q)
  refine congrArg (V c main_arg10) (funext fun a => Fin.ext ?_)
  match a with
  | ⟨0, _⟩ => show win2_4.index t (0 : Fin 2) * 128 + 1 * k.val = k.val; omega
  | ⟨1, _⟩ => show win2_4.index t (1 : Fin 2) * 64 + 1 * q.val = q.val; omega

/-- Entry `(p, q)` of the result's block `t` is entry `(2000 t + p, q)` of the result array. -/
theorem emb_out (t : Fin cfg2.N) (ht : t.val < 25) (p : Fin 2000) (q : Fin 64) :
    ((cfg2.win 5).blk t).view.emb (ix2 p q) = ix2 (rowAt t.val ht p) q := by
  obtain ⟨-, -, -, -, -, -, -, -, -, -, e50, e51⟩ := idx_facts t
  refine funext fun a => Fin.ext ?_
  match a with
  | ⟨0, _⟩ => show win2_5.index t (0 : Fin 2) * 2000 + 1 * p.val = t.val * 2000 + p.val; omega
  | ⟨1, _⟩ => show win2_5.index t (1 : Fin 2) * 64 + 1 * q.val = q.val; omega

/-! ## What a point writes back, the cover, the array -/

/-- What point `t` writes back is block `t` of the dense step and log-softmax of the arrays as the launch finds them. -/
theorem flushed_eq (c : Dev nD) (t : Fin cfg2.N) :
    (dat2 V c).flushed 5 t = ((cfg2.win 5).blk t).view.read (Elt Ideal) (logSoftmax (dense64K (V c main_v63) (V c main_v50) (V c main_arg8) (V c main_v64) (V c main_arg10))) := by
  have ht : t.val < 25 := point_lt t
  show (cfg2.win 5).cut (grid2.coords t) ((dat2 V c).after 5 t) = _
  rw [after2_5]
  unfold out2_5
  rw [View.canon_unit_zero origin]
  simp only [View.ld_unit_zero (S := S2000x128) origin, View.ld_unit_zero (S := S128x64) origin, View.ld_unit_zero (S := S1x64) origin]
  funext j
  obtain ⟨p, q, rfl⟩ : ∃ (p : Fin 2000) (q : Fin 64), j = ix2 p q := ⟨j 0, j 1, eq_ix2 j⟩
  show k2_pay1 (iblk2 V c 0 t) (iblk2 V c 1 t) (iblk2 V c 2 t) (iblk2 V c 4 t) (iblk2 V c 3 t) (ix2 p q)
    = (logSoftmax (dense64K (V c main_v63) (V c main_v50) (V c main_arg8) (V c main_v64) (V c main_arg10))) (((cfg2.win 5).blk t).view.emb (ix2 p q))
  rw [emb_out t ht p q]
  refine (k2_pay1_apply _ _ _ _ _ p q).trans ?_
  have hblk : blockDense64 (iblk2 V c 0 t) (iblk2 V c 1 t) (iblk2 V c 2 t) (iblk2 V c 4 t) (iblk2 V c 3 t)
      = fun p' k' => dense64K (V c main_v63) (V c main_v50) (V c main_arg8) (V c main_v64) (V c main_arg10) (ix2 (rowAt t.val ht p') k') := by
    funext p' k'
    show blockDense64 _ _ _ _ _ p' k' = max _ zeroF
    unfold blockDense64
    simp only [read_agg V c t ht, read_x V c t ht, read_w V c t, read_r V c t, read_b V c t]
  rw [hblk]
  rfl

/-- An index of the result array is in point `t`'s block iff each coordinate is in the block's range on its axis. -/
theorem mem_blk (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v65).slice (win2_5.rect t)).set ↔ _
  rw [View.set_slice_whole, Rect.mem_set_unit]
  exact Iff.rfl

/-- Every row of the result is in some point's block: row `i` in block `i / 2000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 25 := N_2
  have hlt : (i 0).val / 2000 < cfg2.N := by show _ < grid2.N; omega
  obtain ⟨-, -, -, -, -, -, -, -, -, -, e50, e51⟩ := idx_facts ⟨(i 0).val / 2000, hlt⟩
  refine ⟨⟨(i 0).val / 2000, hlt⟩, flush2_5 _, ?_⟩
  rw [mem_blk]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hlt⟩ (1 : Fin 2) * 64 ≤ (i 1).val ∧ (i 1).val < win2_5.index ⟨(i 0).val / 2000, hlt⟩ (1 : Fin 2) * 64 + 64
    rw [e51]; omega

/-- The result array after the launch. -/
theorem result (c : Dev nD) : (dat2 V c).arrAt 5 cfg2.N = (logSoftmax (dense64K (V c main_v63) (V c main_v50) (V c main_arg8) (V c main_v64) (V c main_arg10))) :=
  (dat2 V c).arrAt_eq_of_cover 5 _ (fun t _ => flushed_eq V c t) cover

end Cert.Gcn.Region2

end
-- ==== Proof.KernelValue.lean ====
/-
  The idealized kernel's result array as a function of its argument arrays.

  The fold of buffer contents through the program's segments is walked back from the result buffer. A launch's result
  array is the dense step (Region0, Region1, Region2) of the arrays the launch finds; a buffer a launch does not
  write is as the launch found it; a host stretch's results are the pure functions of what it reads
  (KernelStretch.lean), and it keeps the rest. The sources, targets and degree weights are computed once, before the
  first launch, and read again by the later stretches. Composed: three rounds of "aggregate, dense step" — each bias
  cast to a row —, the last followed by the row-wise log-softmax.
-/
import proofs.«120820_j49323404427977_2_alg».proof.Proof.Gen.KernelIdeal.Frame
import proofs.«120820_j49323404427977_2_alg».proof.Proof.KernelStretch
import proofs.«120820_j49323404427977_2_alg».proof.Proof.Region0
import proofs.«120820_j49323404427977_2_alg».proof.Proof.Region1
import proofs.«120820_j49323404427977_2_alg».proof.Proof.Region2

set_option maxRecDepth 16384

noncomputable section

namespace Cert.Gcn.KernelValue

open Cert.KernelIdeal Cert.KernelIdeal.Gen Cert.Gcn Cert.Gcn.Graph Cert.Gcn.KernelStretch
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first launch's entry: what the first stretches leave -/

theorem in0_agg (c : Dev nD) : V3 m ρ c main_v33 = aggT (m ((c : Thread nD τ).loc main_arg0)) (rowT (m ((c : Thread nD τ).loc main_arg1))) (colT (m ((c : Thread nD τ).loc main_arg1))) (wgtT (colT (m ((c : Thread nD τ).loc main_arg1)))) := S0_agg (W0 m ρ c)
theorem in0_bias (c : Dev nD) : V3 m ρ c main_v34 = shapeCast S1x128 (m ((c : Thread nD τ).loc main_arg3)) shapeCasts_S128_S1x128 := S0_bias (W0 m ρ c)
theorem in0_x (c : Dev nD) : V3 m ρ c main_arg0 = (m ((c : Thread nD τ).loc main_arg0)) := S0_keep_arg0 (W0 m ρ c)
theorem in0_w (c : Dev nD) : V3 m ρ c main_arg2 = (m ((c : Thread nD τ).loc main_arg2)) := S0_keep_arg2 (W0 m ρ c)
theorem in0_r (c : Dev nD) : V3 m ρ c main_arg4 = (m ((c : Thread nD τ).loc main_arg4)) := S0_keep_arg4 (W0 m ρ c)

/-- The first hidden features: the first launch's result array. -/
theorem hidden1 (c : Dev nD) : W4 m ρ c (Proc.devRef .tc main_v35) = (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) := by
  refine (W4_arr m ρ c 5).trans ((Region0.result (V3 m ρ) c).trans ?_)
  rw [in0_agg, in0_bias, in0_x, in0_w, in0_r]

/-! ## What the first launch leaves of the other buffers: as the first stretches left them -/
theorem at4_row (c : Dev nD) : W4 m ρ c (Proc.devRef .tc main_v3) = (rowT (m ((c : Thread nD τ).loc main_arg1))) := (W4_of_ne m ρ c main_v3 (by decide)).trans (S0_row (W0 m ρ c))
theorem at4_col (c : Dev nD) : W4 m ρ c (Proc.devRef .tc main_v6) = (colT (m ((c : Thread nD τ).loc main_arg1))) := (W4_of_ne m ρ c main_v6 (by decide)).trans (S0_col (W0 m ρ c))
theorem at4_wgt (c : Dev nD) : W4 m ρ c (Proc.devRef .tc main_v20) = (wgtT (colT (m ((c : Thread nD τ).loc main_arg1)))) := (W4_of_ne m ρ c main_v20 (by decide)).trans (S0_wgt (W0 m ρ c))
theorem at4_arg5 (c : Dev nD) : W4 m ρ c (Proc.devRef .tc main_arg5) = (m ((c : Thread nD τ).loc main_arg5)) := (W4_of_ne m ρ c main_arg5 (by decide)).trans (S0_keep_arg5 (W0 m ρ c))
theorem at4_arg6 (c : Dev nD) : W4 m ρ c (Proc.devRef .tc main_arg6) = (m ((c : Thread nD τ).loc main_arg6)) := (W4_of_ne m ρ c main_arg6 (by decide)).trans (S0_keep_arg6 (W0 m ρ c))
theorem at4_arg7 (c : Dev nD) : W4 m ρ c (Proc.devRef .tc main_arg7) = (m ((c : Thread nD τ).loc main_arg7)) := (W4_of_ne m ρ c main_arg7 (by decide)).trans (S0_keep_arg7 (W0 m ρ c))
theorem at4_arg8 (c : Dev nD) : W4 m ρ c (Proc.devRef .tc main_arg8) = (m ((c : Thread nD τ).loc main_arg8)) := (W4_of_ne m ρ c main_arg8 (by decide)).trans (S0_keep_arg8 (W0 m ρ c))
theorem at4_arg9 (c : Dev nD) : W4 m ρ c (Proc.devRef .tc main_arg9) = (m ((c : Thread nD τ).loc main_arg9)) := (W4_of_ne m ρ c main_arg9 (by decide)).trans (S0_keep_arg9 (W0 m ρ c))
theorem at4_arg10 (c : Dev nD) : W4 m ρ c (Proc.devRef .tc main_arg10) = (m ((c : Thread nD τ).loc main_arg10)) := (W4_of_ne m ρ c main_arg10 (by decide)).trans (S0_keep_arg10 (W0 m ρ c))

/-! ## The second launch -/
theorem in1_agg (c : Dev nD) : V5 m ρ c main_v48 = aggT (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (rowT (m ((c : Thread nD τ).loc main_arg1))) (colT (m ((c : Thread nD τ).loc main_arg1))) (wgtT (colT (m ((c : Thread nD τ).loc main_arg1)))) := by
  refine (S1_agg (W4 m ρ c)).trans ?_
  rw [hidden1, at4_row, at4_col, at4_wgt]
theorem in1_bias (c : Dev nD) : V5 m ρ c main_v49 = shapeCast S1x128 (m ((c : Thread nD τ).loc main_arg6)) shapeCasts_S128_S1x128 := by
  refine (S1_bias (W4 m ρ c)).trans ?_
  rw [at4_arg6]
theorem in1_x (c : Dev nD) : V5 m ρ c main_v35 = (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) := (S1_keep_v35 (W4 m ρ c)).trans (hidden1 m ρ c)
theorem in1_w (c : Dev nD) : V5 m ρ c main_arg5 = (m ((c : Thread nD τ).loc main_arg5)) := (S1_keep_arg5 (W4 m ρ c)).trans (at4_arg5 m ρ c)
theorem in1_r (c : Dev nD) : V5 m ρ c main_arg7 = (m ((c : Thread nD τ).loc main_arg7)) := (S1_keep_arg7 (W4 m ρ c)).trans (at4_arg7 m ρ c)

/-- The second hidden features: the second launch's result array. -/
theorem hidden2 (c : Dev nD) : W6 m ρ c (Proc.devRef .tc main_v50) = (dense128K (aggT (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (rowT (m ((c : Thread nD τ).loc main_arg1))) (colT (m ((c : Thread nD τ).loc main_arg1))) (wgtT (colT (m ((c : Thread nD τ).loc main_arg1))))) (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (m ((c : Thread nD τ).loc main_arg5)) (shapeCast S1x128 (m ((c : Thread nD τ).loc main_arg6)) shapeCasts_S128_S1x128) (m ((c : Thread nD τ).loc main_arg7))) := by
  refine (W6_arr m ρ c 5).trans ((Region1.result (V5 m ρ) c).trans ?_)
  rw [in1_agg, in1_bias, in1_x, in1_w, in1_r]

theorem at6_row (c : Dev nD) : W6 m ρ c (Proc.devRef .tc main_v3) = (rowT (m ((c : Thread nD τ).loc main_arg1))) :=
  (W6_of_ne m ρ c main_v3 (by decide)).trans ((S1_keep_v3 (W4 m ρ c)).trans (at4_row m ρ c))
theorem at6_col (c : Dev nD) : W6 m ρ c (Proc.devRef .tc main_v6) = (colT (m ((c : Thread nD τ).loc main_arg1))) :=
  (W6_of_ne m ρ c main_v6 (by decide)).trans ((S1_keep_v6 (W4 m ρ c)).trans (at4_col m ρ c))
theorem at6_wgt (c : Dev nD) : W6 m ρ c (Proc.devRef .tc main_v20) = (wgtT (colT (m ((c : Thread nD τ).loc main_arg1)))) :=
  (W6_of_ne m ρ c main_v20 (by decide)).trans ((S1_keep_v20 (W4 m ρ c)).trans (at4_wgt m ρ c))
theorem at6_arg8 (c : Dev nD) : W6 m ρ c (Proc.devRef .tc main_arg8) = (m ((c : Thread nD τ).loc main_arg8)) :=
  (W6_of_ne m ρ c main_arg8 (by decide)).trans ((S1_keep_arg8 (W4 m ρ c)).trans (at4_arg8 m ρ c))
theorem at6_arg9 (c : Dev nD) : W6 m ρ c (Proc.devRef .tc main_arg9) = (m ((c : Thread nD τ).loc main_arg9)) :=
  (W6_of_ne m ρ c main_arg9 (by decide)).trans ((S1_keep_arg9 (W4 m ρ c)).trans (at4_arg9 m ρ c))
theorem at6_arg10 (c : Dev nD) : W6 m ρ c (Proc.devRef .tc main_arg10) = (m ((c : Thread nD τ).loc main_arg10)) :=
  (W6_of_ne m ρ c main_arg10 (by decide)).trans ((S1_keep_arg10 (W4 m ρ c)).trans (at4_arg10 m ρ c))

/-! ## The third launch -/
theorem in2_agg (c : Dev nD) : V7 m ρ c main_v63 = aggT (dense128K (aggT (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (rowT (m ((c : Thread nD τ).loc main_arg1))) (colT (m ((c : Thread nD τ).loc main_arg1))) (wgtT (colT (m ((c : Thread nD τ).loc main_arg1))))) (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (m ((c : Thread nD τ).loc main_arg5)) (shapeCast S1x128 (m ((c : Thread nD τ).loc main_arg6)) shapeCasts_S128_S1x128) (m ((c : Thread nD τ).loc main_arg7))) (rowT (m ((c : Thread nD τ).loc main_arg1))) (colT (m ((c : Thread nD τ).loc main_arg1))) (wgtT (colT (m ((c : Thread nD τ).loc main_arg1)))) := by
  refine (S2_agg (W6 m ρ c)).trans ?_
  rw [hidden2, at6_row, at6_col, at6_wgt]
theorem in2_bias (c : Dev nD) : V7 m ρ c main_v64 = shapeCast S1x64 (m ((c : Thread nD τ).loc main_arg9)) shapeCasts_S64_S1x64 := by
  refine (S2_bias (W6 m ρ c)).trans ?_
  rw [at6_arg9]
theorem in2_x (c : Dev nD) : V7 m ρ c main_v50 = (dense128K (aggT (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (rowT (m ((c : Thread nD τ).loc main_arg1))) (colT (m ((c : Thread nD τ).loc main_arg1))) (wgtT (colT (m ((c : Thread nD τ).loc main_arg1))))) (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (m ((c : Thread nD τ).loc main_arg5)) (shapeCast S1x128 (m ((c : Thread nD τ).loc main_arg6)) shapeCasts_S128_S1x128) (m ((c : Thread nD τ).loc main_arg7))) := (S2_keep_v50 (W6 m ρ c)).trans (hidden2 m ρ c)
theorem in2_w (c : Dev nD) : V7 m ρ c main_arg8 = (m ((c : Thread nD τ).loc main_arg8)) := (S2_keep_arg8 (W6 m ρ c)).trans (at6_arg8 m ρ c)
theorem in2_r (c : Dev nD) : V7 m ρ c main_arg10 = (m ((c : Thread nD τ).loc main_arg10)) := (S2_keep_arg10 (W6 m ρ c)).trans (at6_arg10 m ρ c)

/-- The kernel's result as a function of its argument arrays on core `c`: three rounds of "aggregate, dense step" — each
    bias cast to a row —, the last followed by the row-wise log-softmax. -/
def out (c : Dev nD) : Buf (Elt Ideal) ((c : Thread nD τ).loc main_v65) :=
  (logSoftmax (dense64K (aggT (dense128K (aggT (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (rowT (m ((c : Thread nD τ).loc main_arg1))) (colT (m ((c : Thread nD τ).loc main_arg1))) (wgtT (colT (m ((c : Thread nD τ).loc main_arg1))))) (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (m ((c : Thread nD τ).loc main_arg5)) (shapeCast S1x128 (m ((c : Thread nD τ).loc main_arg6)) shapeCasts_S128_S1x128) (m ((c : Thread nD τ).loc main_arg7))) (rowT (m ((c : Thread nD τ).loc main_arg1))) (colT (m ((c : Thread nD τ).loc main_arg1))) (wgtT (colT (m ((c : Thread nD τ).loc main_arg1))))) (dense128K (aggT (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (rowT (m ((c : Thread nD τ).loc main_arg1))) (colT (m ((c : Thread nD τ).loc main_arg1))) (wgtT (colT (m ((c : Thread nD τ).loc main_arg1))))) (dense128K (aggT (m ((c : Thread nD τ).loc main_arg0)) (rowT (m ((c : Thread nD τ).loc main_arg1))) (colT (m ((c : Thread nD τ).loc main_arg1))) (wgtT (colT (m ((c : Thread nD τ).loc main_arg1))))) (m ((c : Thread nD τ).loc main_arg0)) (m ((c : Thread nD τ).loc main_arg2)) (shapeCast S1x128 (m ((c : Thread nD τ).loc main_arg3)) shapeCasts_S128_S1x128) (m ((c : Thread nD τ).loc main_arg4))) (m ((c : Thread nD τ).loc main_arg5)) (shapeCast S1x128 (m ((c : Thread nD τ).loc main_arg6)) shapeCasts_S128_S1x128) (m ((c : Thread nD τ).loc main_arg7))) (m ((c : Thread nD τ).loc main_arg8)) (shapeCast S1x64 (m ((c : Thread nD τ).loc main_arg9)) shapeCasts_S64_S1x64) (m ((c : Thread nD τ).loc main_arg10))))

/-- The result array after the run. -/
theorem value (c : Dev nD) : W8 m ρ c (Proc.devRef .tc main_v65) = out m c := by
  unfold out
  refine (W8_arr m ρ c 5).trans ((Region2.result (V7 m ρ) c).trans ?_)
  rw [in2_agg, in2_bias, in2_x, in2_w, in2_r]

end Cert.Gcn.KernelValue

end
-- ==== Proof.RefOps.lean ====
/-
  The reference program as a line of host operations.

  The reference is a straight line of 163 host operations. They are listed here in six stretches — the sources and
  targets; the degree weights; three rounds of "aggregate the neighbours, dense step" (the second and third count the
  degrees again); the row-wise log-softmax — and as the one line the program's `main` is. Every operation touches
  TensorCore buffers only and nothing is scoped, which is what the run theorem for such a line asks.
-/
import proofs.«120820_j49323404427977_2_alg».proof.Proof.Gen.ReferenceIdeal
import Idealize.ShloMosaic.Lib.StableHlo.Run

noncomputable section

namespace Cert.Gcn.RefOps

open Cert.ReferenceIdeal Cert.ReferenceIdeal.Gen Idealize.ShloMosaic Idealize.ShloMosaic.TcCoe Idealize.SL.Sem Idealize.ShloMosaic.StableHlo

variable {F : FTy → Type} [FloatOps F]

/-- The sources and the targets, self loops appended (each joins a row of the edge list with the node numbers). -/
abbrev opsA1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The per-edge degree weights, from the targets. -/
abbrev opsA2 : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v10) (TRef.of (T := ⟨S50000, .f32⟩) main_v11) maximumf,
    nullary main_cst_2 (constant S_ .f32 0x3F800000#32),
    unary main_cst_2 main_v12 (broadcastInDim S50000 ![] bcast_S_S50000 : (⟨S_, .f32⟩ : BufTy).Contents (Elt F) → (⟨S50000, .f32⟩ : BufTy).Contents (Elt F)),
    binary main_v12 main_v11 main_v13 (Host.divf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v6 main_v14 main_v15 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v16 (broadcastInDim S850000 ![] bcast_S_S850000 : (⟨S_, .i32⟩ : BufTy).Contents (Elt F) → (⟨S850000, .i32⟩ : BufTy).Contents (Elt F)),
    binary main_v6 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v6 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ]

/-- Round 1: aggregate the input features, dense step. -/
abbrev opsB : List (HloOp τ sig (Elt F)) :=
  [ nullary main_c_4 (constantI S_ 32 0#32),
    unary main_c_4 main_v21 (broadcastInDim S850000 ![] bcast_S_S850000 : (⟨S_, .i32⟩ : BufTy).Contents (Elt F) → (⟨S850000, .i32⟩ : BufTy).Contents (Elt F)),
    binary main_v3 main_v21 main_v22 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v23 (broadcastInDim S850000 ![] bcast_S_S850000 : (⟨S_, .i32⟩ : BufTy).Contents (Elt F) → (⟨S850000, .i32⟩ : BufTy).Contents (Elt F)),
    binary main_v3 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v3 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_arg0 main_v26 main_v27 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v20 main_v28 (broadcastInDim S850000x1 ![0] bcast_S850000_S850000x1_0 : (⟨S850000, .f32⟩ : BufTy).Contents (Elt F) → (⟨S850000x1, .f32⟩ : BufTy).Contents (Elt F)),
    unary main_v28 main_v29 (broadcastInDim S850000x128 ![0, 1] bcast_S850000x1_S850000x128_0_1 : (⟨S850000x1, .f32⟩ : BufTy).Contents (Elt F) → (⟨S850000x128, .f32⟩ : BufTy).Contents (Elt F)),
    binary main_v27 main_v29 main_v30 (mulf : (⟨S850000x128, .f32⟩ : BufTy).Contents (Elt F) → (⟨S850000x128, .f32⟩ : BufTy).Contents (Elt F) → (⟨S850000x128, .f32⟩ : BufTy).Contents (Elt F)),
    nullary main_cst_6 (constant S_ .f32 0x00000000#32),
    unary main_cst_6 main_v31 (broadcastInDim S50000x128 ![] bcast_S_S50000x128 : (⟨S_, .f32⟩ : BufTy).Contents (Elt F) → (⟨S50000x128, .f32⟩ : BufTy).Contents (Elt F)),
    unary main_v6 main_v32 (broadcastInDim S850000x1 ![0] bcast_S850000_S850000x1_0 : (⟨S850000, .i32⟩ : BufTy).Contents (Elt F) → (⟨S850000x1, .i32⟩ : BufTy).Contents (Elt F)),
    ternary main_v31 main_v32 main_v30 main_v33 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v33 main_arg2 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)),
    binary main_arg0 main_arg4 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v37 main_v38 main_v39 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v39) (TRef.of (T := ⟨S50000x128, .f32⟩) main_call1_v0) (TRef.of (T := ⟨S50000x128, .f32⟩) main_v40) maximumf ]

/-- Round 2: the degree weights again, aggregate the first hidden features, dense step. -/
abbrev opsC : List (HloOp τ sig (Elt F)) :=
  [ nullary main_cst_7 (constant S_ .f32 0x3F800000#32),
    unary main_cst_7 main_v41 (broadcastInDim S850000 ![] bcast_S_S850000 : (⟨S_, .f32⟩ : BufTy).Contents (Elt F) → (⟨S850000, .f32⟩ : BufTy).Contents (Elt F)),
    nullary main_cst_8 (constant S_ .f32 0x00000000#32),
    unary main_cst_8 main_v42 (broadcastInDim S50000 ![] bcast_S_S50000 : (⟨S_, .f32⟩ : BufTy).Contents (Elt F) → (⟨S50000, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v44) (TRef.of (T := ⟨S50000, .f32⟩) main_v45) maximumf,
    nullary main_cst_10 (constant S_ .f32 0x3F800000#32),
    unary main_cst_10 main_v46 (broadcastInDim S50000 ![] bcast_S_S50000 : (⟨S_, .f32⟩ : BufTy).Contents (Elt F) → (⟨S50000, .f32⟩ : BufTy).Contents (Elt F)),
    binary main_v46 main_v45 main_v47 (Host.divf : (⟨S50000, .f32⟩ : BufTy).Contents (Elt F) → (⟨S50000, .f32⟩ : BufTy).Contents (Elt F) → (⟨S50000, .f32⟩ : BufTy).Contents (Elt F)),
    nullary main_c_11 (constantI S_ 32 0#32),
    unary main_c_11 main_v48 (broadcastInDim S850000 ![] bcast_S_S850000 : (⟨S_, .i32⟩ : BufTy).Contents (Elt F) → (⟨S850000, .i32⟩ : BufTy).Contents (Elt F)),
    binary main_v6 main_v48 main_v49 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v50 (broadcastInDim S850000 ![] bcast_S_S850000 : (⟨S_, .i32⟩ : BufTy).Contents (Elt F) → (⟨S850000, .i32⟩ : BufTy).Contents (Elt F)),
    binary main_v6 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v6 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_13 (constantI S_ 32 0#32),
    unary main_c_13 main_v55 (broadcastInDim S850000 ![] bcast_S_S850000 : (⟨S_, .i32⟩ : BufTy).Contents (Elt F) → (⟨S850000, .i32⟩ : BufTy).Contents (Elt F)),
    binary main_v3 main_v55 main_v56 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v57 (broadcastInDim S850000 ![] bcast_S_S850000 : (⟨S_, .i32⟩ : BufTy).Contents (Elt F) → (⟨S850000, .i32⟩ : BufTy).Contents (Elt F)),
    binary main_v3 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v3 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    binary main_v40 main_v60 main_v61 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v54 main_v62 (broadcastInDim S850000x1 ![0] bcast_S850000_S850000x1_0 : (⟨S850000, .f32⟩ : BufTy).Contents (Elt F) → (⟨S850000x1, .f32⟩ : BufTy).Contents (Elt F)),
    unary main_v62 main_v63 (broadcastInDim S850000x128 ![0, 1] bcast_S850000x1_S850000x128_0_1 : (⟨S850000x1, .f32⟩ : BufTy).Contents (Elt F) → (⟨S850000x128, .f32⟩ : BufTy).Contents (Elt F)),
    binary main_v61 main_v63 main_v64 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v65 (broadcastInDim S50000x128 ![] bcast_S_S50000x128 : (⟨S_, .f32⟩ : BufTy).Contents (Elt F) → (⟨S50000x128, .f32⟩ : BufTy).Contents (Elt F)),
    unary main_v6 main_v66 (broadcastInDim S850000x1 ![0] bcast_S850000_S850000x1_0 : (⟨S850000, .i32⟩ : BufTy).Contents (Elt F) → (⟨S850000x1, .i32⟩ : BufTy).Contents (Elt F)),
    ternary main_v65 main_v66 main_v64 main_v67 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v67 main_arg5 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    binary main_v40 main_arg7 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v71 main_v72 main_v73 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v73) (TRef.of (T := ⟨S50000x128, .f32⟩) main_call3_v0) (TRef.of (T := ⟨S50000x128, .f32⟩) main_v74) maximumf ]

/-- Round 3: the degree weights again, aggregate the second hidden features, dense step into 64 features. -/
abbrev opsD : List (HloOp τ sig (Elt F)) :=
  [ nullary main_cst_16 (constant S_ .f32 0x3F800000#32),
    unary main_cst_16 main_v75 (broadcastInDim S850000 ![] bcast_S_S850000 : (⟨S_, .f32⟩ : BufTy).Contents (Elt F) → (⟨S850000, .f32⟩ : BufTy).Contents (Elt F)),
    nullary main_cst_17 (constant S_ .f32 0x00000000#32),
    unary main_cst_17 main_v76 (broadcastInDim S50000 ![] bcast_S_S50000 : (⟨S_, .f32⟩ : BufTy).Contents (Elt F) → (⟨S50000, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_18 (constant S_ .f32 0x3F800000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v78) (TRef.of (T := ⟨S50000, .f32⟩) main_v79) maximumf,
    nullary main_cst_19 (constant S_ .f32 0x3F800000#32),
    unary main_cst_19 main_v80 (broadcastInDim S50000 ![] bcast_S_S50000 : (⟨S_, .f32⟩ : BufTy).Contents (Elt F) → (⟨S50000, .f32⟩ : BufTy).Contents (Elt F)),
    binary main_v80 main_v79 main_v81 (Host.divf : (⟨S50000, .f32⟩ : BufTy).Contents (Elt F) → (⟨S50000, .f32⟩ : BufTy).Contents (Elt F) → (⟨S50000, .f32⟩ : BufTy).Contents (Elt F)),
    nullary main_c_20 (constantI S_ 32 0#32),
    unary main_c_20 main_v82 (broadcastInDim S850000 ![] bcast_S_S850000 : (⟨S_, .i32⟩ : BufTy).Contents (Elt F) → (⟨S850000, .i32⟩ : BufTy).Contents (Elt F)),
    binary main_v6 main_v82 main_v83 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v84 (broadcastInDim S850000 ![] bcast_S_S850000 : (⟨S_, .i32⟩ : BufTy).Contents (Elt F) → (⟨S850000, .i32⟩ : BufTy).Contents (Elt F)),
    binary main_v6 main_v84 main_v85 (addi : (⟨S850000, .i32⟩ : BufTy).Contents (Elt F) → (⟨S850000, .i32⟩ : BufTy).Contents (Elt F) → (⟨S850000, .i32⟩ : BufTy).Contents (Elt F)),
    ternary main_v83 main_v85 main_v6 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v86 main_v87 (broadcastInDim S850000x1 ![0] bcast_S850000_S850000x1_0 : (⟨S850000, .i32⟩ : BufTy).Contents (Elt F) → (⟨S850000x1, .i32⟩ : BufTy).Contents (Elt F)),
    binary main_v81 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_22 (constantI S_ 32 0#32),
    unary main_c_22 main_v89 (broadcastInDim S850000 ![] bcast_S_S850000 : (⟨S_, .i32⟩ : BufTy).Contents (Elt F) → (⟨S850000, .i32⟩ : BufTy).Contents (Elt F)),
    binary main_v3 main_v89 main_v90 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v91 (broadcastInDim S850000 ![] bcast_S_S850000 : (⟨S_, .i32⟩ : BufTy).Contents (Elt F) → (⟨S850000, .i32⟩ : BufTy).Contents (Elt F)),
    binary main_v3 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v3 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v74 main_v94 main_v95 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v88 main_v96 (broadcastInDim S850000x1 ![0] bcast_S850000_S850000x1_0 : (⟨S850000, .f32⟩ : BufTy).Contents (Elt F) → (⟨S850000x1, .f32⟩ : BufTy).Contents (Elt F)),
    unary main_v96 main_v97 (broadcastInDim S850000x128 ![0, 1] bcast_S850000x1_S850000x128_0_1 : (⟨S850000x1, .f32⟩ : BufTy).Contents (Elt F) → (⟨S850000x128, .f32⟩ : BufTy).Contents (Elt F)),
    binary main_v95 main_v97 main_v98 (mulf : (⟨S850000x128, .f32⟩ : BufTy).Contents (Elt F) → (⟨S850000x128, .f32⟩ : BufTy).Contents (Elt F) → (⟨S850000x128, .f32⟩ : BufTy).Contents (Elt F)),
    nullary main_cst_24 (constant S_ .f32 0x00000000#32),
    unary main_cst_24 main_v99 (broadcastInDim S50000x128 ![] bcast_S_S50000x128 : (⟨S_, .f32⟩ : BufTy).Contents (Elt F) → (⟨S50000x128, .f32⟩ : BufTy).Contents (Elt F)),
    unary main_v6 main_v100 (broadcastInDim S850000x1 ![0] bcast_S850000_S850000x1_0 : (⟨S850000, .i32⟩ : BufTy).Contents (Elt F) → (⟨S850000x1, .i32⟩ : BufTy).Contents (Elt F)),
    ternary main_v99 main_v100 main_v98 main_v101 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v101 main_arg8 main_v102 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v103 (broadcastInDim S1x64 ![1] bcast_S64_S1x64_1 : (⟨S64, .f32⟩ : BufTy).Contents (Elt F) → (⟨S1x64, .f32⟩ : BufTy).Contents (Elt F)),
    unary main_v103 main_v104 (broadcastInDim S50000x64 ![0, 1] bcast_S1x64_S50000x64_0_1 : (⟨S1x64, .f32⟩ : BufTy).Contents (Elt F) → (⟨S50000x64, .f32⟩ : BufTy).Contents (Elt F)),
    binary main_v102 main_v104 main_v105 (addf : (⟨S50000x64, .f32⟩ : BufTy).Contents (Elt F) → (⟨S50000x64, .f32⟩ : BufTy).Contents (Elt F) → (⟨S50000x64, .f32⟩ : BufTy).Contents (Elt F)),
    binary main_v74 main_arg10 main_v106 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v105 main_v106 main_v107 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v107) (TRef.of (T := ⟨S50000x64, .f32⟩) main_call5_v0) (TRef.of (T := ⟨S50000x64, .f32⟩) main_v108) maximumf ]

/-- The row-wise log-softmax. -/
abbrev opsE : List (HloOp τ sig (Elt F)) :=
  [ TRef.nullary (TRef.of (T := ⟨S_, .f32⟩) main_call6_cst) (constant S_ .f32 0xFF800000#32),
    TRef.binary (TRef.of (T := ⟨S50000x64, .f32⟩) main_v108) (TRef.of (T := ⟨S_, .f32⟩) main_call6_cst) (TRef.of (T := ⟨S50000, .f32⟩) main_call6_v0) (fun x v => Host.reduce FloatOps.maximumf x v reducesTo_S50000x64_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf,
    TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x64, .f32⟩) main_call6_v4) (broadcastInDim S50000x64 ![0, 1] bcast_S50000x1_S50000x64_0_1),
    TRef.binary (TRef.of (T := ⟨S50000x64, .f32⟩) main_v108) (TRef.of (T := ⟨S50000x64, .f32⟩) main_call6_v4) (TRef.of (T := ⟨S50000x64, .f32⟩) main_call6_v5) subf,
    TRef.unary (TRef.of (T := ⟨S50000x64, .f32⟩) main_call6_v5) (TRef.of (T := ⟨S50000x64, .f32⟩) main_call6_v6) Host.exp,
    TRef.nullary (TRef.of (T := ⟨S_, .f32⟩) main_call6_cst_1) (constant S_ .f32 0x00000000#32),
    TRef.binary (TRef.of (T := ⟨S50000x64, .f32⟩) main_call6_v6) (TRef.of (T := ⟨S_, .f32⟩) main_call6_cst_1) (TRef.of (T := ⟨S50000, .f32⟩) main_call6_v7) (fun x v => Host.reduceAdd x v reducesTo_S50000x64_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x64, .f32⟩) main_call6_v10) (broadcastInDim S50000x64 ![0, 1] bcast_S50000x1_S50000x64_0_1),
    TRef.binary (TRef.of (T := ⟨S50000x64, .f32⟩) main_call6_v5) (TRef.of (T := ⟨S50000x64, .f32⟩) main_call6_v10) (TRef.of (T := ⟨S50000x64, .f32⟩) main_v109) subf ]

/-- The whole line. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v10) (TRef.of (T := ⟨S50000, .f32⟩) main_v11) maximumf,
    nullary main_cst_2 (constant S_ .f32 0x3F800000#32),
    unary main_cst_2 main_v12 (broadcastInDim S50000 ![] bcast_S_S50000 : (⟨S_, .f32⟩ : BufTy).Contents (Elt F) → (⟨S50000, .f32⟩ : BufTy).Contents (Elt F)),
    binary main_v12 main_v11 main_v13 (Host.divf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v6 main_v14 main_v15 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v16 (broadcastInDim S850000 ![] bcast_S_S850000 : (⟨S_, .i32⟩ : BufTy).Contents (Elt F) → (⟨S850000, .i32⟩ : BufTy).Contents (Elt F)),
    binary main_v6 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v6 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v21 (broadcastInDim S850000 ![] bcast_S_S850000 : (⟨S_, .i32⟩ : BufTy).Contents (Elt F) → (⟨S850000, .i32⟩ : BufTy).Contents (Elt F)),
    binary main_v3 main_v21 main_v22 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v23 (broadcastInDim S850000 ![] bcast_S_S850000 : (⟨S_, .i32⟩ : BufTy).Contents (Elt F) → (⟨S850000, .i32⟩ : BufTy).Contents (Elt F)),
    binary main_v3 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v3 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_arg0 main_v26 main_v27 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v20 main_v28 (broadcastInDim S850000x1 ![0] bcast_S850000_S850000x1_0 : (⟨S850000, .f32⟩ : BufTy).Contents (Elt F) → (⟨S850000x1, .f32⟩ : BufTy).Contents (Elt F)),
    unary main_v28 main_v29 (broadcastInDim S850000x128 ![0, 1] bcast_S850000x1_S850000x128_0_1 : (⟨S850000x1, .f32⟩ : BufTy).Contents (Elt F) → (⟨S850000x128, .f32⟩ : BufTy).Contents (Elt F)),
    binary main_v27 main_v29 main_v30 (mulf : (⟨S850000x128, .f32⟩ : BufTy).Contents (Elt F) → (⟨S850000x128, .f32⟩ : BufTy).Contents (Elt F) → (⟨S850000x128, .f32⟩ : BufTy).Contents (Elt F)),
    nullary main_cst_6 (constant S_ .f32 0x00000000#32),
    unary main_cst_6 main_v31 (broadcastInDim S50000x128 ![] bcast_S_S50000x128 : (⟨S_, .f32⟩ : BufTy).Contents (Elt F) → (⟨S50000x128, .f32⟩ : BufTy).Contents (Elt F)),
    unary main_v6 main_v32 (broadcastInDim S850000x1 ![0] bcast_S850000_S850000x1_0 : (⟨S850000, .i32⟩ : BufTy).Contents (Elt F) → (⟨S850000x1, .i32⟩ : BufTy).Contents (Elt F)),
    ternary main_v31 main_v32 main_v30 main_v33 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v33 main_arg2 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)),
    binary main_arg0 main_arg4 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v37 main_v38 main_v39 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v39) (TRef.of (T := ⟨S50000x128, .f32⟩) main_call1_v0) (TRef.of (T := ⟨S50000x128, .f32⟩) main_v40) maximumf,
    nullary main_cst_7 (constant S_ .f32 0x3F800000#32),
    unary main_cst_7 main_v41 (broadcastInDim S850000 ![] bcast_S_S850000 : (⟨S_, .f32⟩ : BufTy).Contents (Elt F) → (⟨S850000, .f32⟩ : BufTy).Contents (Elt F)),
    nullary main_cst_8 (constant S_ .f32 0x00000000#32),
    unary main_cst_8 main_v42 (broadcastInDim S50000 ![] bcast_S_S50000 : (⟨S_, .f32⟩ : BufTy).Contents (Elt F) → (⟨S50000, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v44) (TRef.of (T := ⟨S50000, .f32⟩) main_v45) maximumf,
    nullary main_cst_10 (constant S_ .f32 0x3F800000#32),
    unary main_cst_10 main_v46 (broadcastInDim S50000 ![] bcast_S_S50000 : (⟨S_, .f32⟩ : BufTy).Contents (Elt F) → (⟨S50000, .f32⟩ : BufTy).Contents (Elt F)),
    binary main_v46 main_v45 main_v47 (Host.divf : (⟨S50000, .f32⟩ : BufTy).Contents (Elt F) → (⟨S50000, .f32⟩ : BufTy).Contents (Elt F) → (⟨S50000, .f32⟩ : BufTy).Contents (Elt F)),
    nullary main_c_11 (constantI S_ 32 0#32),
    unary main_c_11 main_v48 (broadcastInDim S850000 ![] bcast_S_S850000 : (⟨S_, .i32⟩ : BufTy).Contents (Elt F) → (⟨S850000, .i32⟩ : BufTy).Contents (Elt F)),
    binary main_v6 main_v48 main_v49 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v50 (broadcastInDim S850000 ![] bcast_S_S850000 : (⟨S_, .i32⟩ : BufTy).Contents (Elt F) → (⟨S850000, .i32⟩ : BufTy).Contents (Elt F)),
    binary main_v6 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v6 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_13 (constantI S_ 32 0#32),
    unary main_c_13 main_v55 (broadcastInDim S850000 ![] bcast_S_S850000 : (⟨S_, .i32⟩ : BufTy).Contents (Elt F) → (⟨S850000, .i32⟩ : BufTy).Contents (Elt F)),
    binary main_v3 main_v55 main_v56 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v57 (broadcastInDim S850000 ![] bcast_S_S850000 : (⟨S_, .i32⟩ : BufTy).Contents (Elt F) → (⟨S850000, .i32⟩ : BufTy).Contents (Elt F)),
    binary main_v3 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v3 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    binary main_v40 main_v60 main_v61 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v54 main_v62 (broadcastInDim S850000x1 ![0] bcast_S850000_S850000x1_0 : (⟨S850000, .f32⟩ : BufTy).Contents (Elt F) → (⟨S850000x1, .f32⟩ : BufTy).Contents (Elt F)),
    unary main_v62 main_v63 (broadcastInDim S850000x128 ![0, 1] bcast_S850000x1_S850000x128_0_1 : (⟨S850000x1, .f32⟩ : BufTy).Contents (Elt F) → (⟨S850000x128, .f32⟩ : BufTy).Contents (Elt F)),
    binary main_v61 main_v63 main_v64 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v65 (broadcastInDim S50000x128 ![] bcast_S_S50000x128 : (⟨S_, .f32⟩ : BufTy).Contents (Elt F) → (⟨S50000x128, .f32⟩ : BufTy).Contents (Elt F)),
    unary main_v6 main_v66 (broadcastInDim S850000x1 ![0] bcast_S850000_S850000x1_0 : (⟨S850000, .i32⟩ : BufTy).Contents (Elt F) → (⟨S850000x1, .i32⟩ : BufTy).Contents (Elt F)),
    ternary main_v65 main_v66 main_v64 main_v67 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v67 main_arg5 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    binary main_v40 main_arg7 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v71 main_v72 main_v73 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v73) (TRef.of (T := ⟨S50000x128, .f32⟩) main_call3_v0) (TRef.of (T := ⟨S50000x128, .f32⟩) main_v74) maximumf,
    nullary main_cst_16 (constant S_ .f32 0x3F800000#32),
    unary main_cst_16 main_v75 (broadcastInDim S850000 ![] bcast_S_S850000 : (⟨S_, .f32⟩ : BufTy).Contents (Elt F) → (⟨S850000, .f32⟩ : BufTy).Contents (Elt F)),
    nullary main_cst_17 (constant S_ .f32 0x00000000#32),
    unary main_cst_17 main_v76 (broadcastInDim S50000 ![] bcast_S_S50000 : (⟨S_, .f32⟩ : BufTy).Contents (Elt F) → (⟨S50000, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_18 (constant S_ .f32 0x3F800000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v78) (TRef.of (T := ⟨S50000, .f32⟩) main_v79) maximumf,
    nullary main_cst_19 (constant S_ .f32 0x3F800000#32),
    unary main_cst_19 main_v80 (broadcastInDim S50000 ![] bcast_S_S50000 : (⟨S_, .f32⟩ : BufTy).Contents (Elt F) → (⟨S50000, .f32⟩ : BufTy).Contents (Elt F)),
    binary main_v80 main_v79 main_v81 (Host.divf : (⟨S50000, .f32⟩ : BufTy).Contents (Elt F) → (⟨S50000, .f32⟩ : BufTy).Contents (Elt F) → (⟨S50000, .f32⟩ : BufTy).Contents (Elt F)),
    nullary main_c_20 (constantI S_ 32 0#32),
    unary main_c_20 main_v82 (broadcastInDim S850000 ![] bcast_S_S850000 : (⟨S_, .i32⟩ : BufTy).Contents (Elt F) → (⟨S850000, .i32⟩ : BufTy).Contents (Elt F)),
    binary main_v6 main_v82 main_v83 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v84 (broadcastInDim S850000 ![] bcast_S_S850000 : (⟨S_, .i32⟩ : BufTy).Contents (Elt F) → (⟨S850000, .i32⟩ : BufTy).Contents (Elt F)),
    binary main_v6 main_v84 main_v85 (addi : (⟨S850000, .i32⟩ : BufTy).Contents (Elt F) → (⟨S850000, .i32⟩ : BufTy).Contents (Elt F) → (⟨S850000, .i32⟩ : BufTy).Contents (Elt F)),
    ternary main_v83 main_v85 main_v6 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v86 main_v87 (broadcastInDim S850000x1 ![0] bcast_S850000_S850000x1_0 : (⟨S850000, .i32⟩ : BufTy).Contents (Elt F) → (⟨S850000x1, .i32⟩ : BufTy).Contents (Elt F)),
    binary main_v81 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_22 (constantI S_ 32 0#32),
    unary main_c_22 main_v89 (broadcastInDim S850000 ![] bcast_S_S850000 : (⟨S_, .i32⟩ : BufTy).Contents (Elt F) → (⟨S850000, .i32⟩ : BufTy).Contents (Elt F)),
    binary main_v3 main_v89 main_v90 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v91 (broadcastInDim S850000 ![] bcast_S_S850000 : (⟨S_, .i32⟩ : BufTy).Contents (Elt F) → (⟨S850000, .i32⟩ : BufTy).Contents (Elt F)),
    binary main_v3 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v3 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v74 main_v94 main_v95 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v88 main_v96 (broadcastInDim S850000x1 ![0] bcast_S850000_S850000x1_0 : (⟨S850000, .f32⟩ : BufTy).Contents (Elt F) → (⟨S850000x1, .f32⟩ : BufTy).Contents (Elt F)),
    unary main_v96 main_v97 (broadcastInDim S850000x128 ![0, 1] bcast_S850000x1_S850000x128_0_1 : (⟨S850000x1, .f32⟩ : BufTy).Contents (Elt F) → (⟨S850000x128, .f32⟩ : BufTy).Contents (Elt F)),
    binary main_v95 main_v97 main_v98 (mulf : (⟨S850000x128, .f32⟩ : BufTy).Contents (Elt F) → (⟨S850000x128, .f32⟩ : BufTy).Contents (Elt F) → (⟨S850000x128, .f32⟩ : BufTy).Contents (Elt F)),
    nullary main_cst_24 (constant S_ .f32 0x00000000#32),
    unary main_cst_24 main_v99 (broadcastInDim S50000x128 ![] bcast_S_S50000x128 : (⟨S_, .f32⟩ : BufTy).Contents (Elt F) → (⟨S50000x128, .f32⟩ : BufTy).Contents (Elt F)),
    unary main_v6 main_v100 (broadcastInDim S850000x1 ![0] bcast_S850000_S850000x1_0 : (⟨S850000, .i32⟩ : BufTy).Contents (Elt F) → (⟨S850000x1, .i32⟩ : BufTy).Contents (Elt F)),
    ternary main_v99 main_v100 main_v98 main_v101 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v101 main_arg8 main_v102 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v103 (broadcastInDim S1x64 ![1] bcast_S64_S1x64_1 : (⟨S64, .f32⟩ : BufTy).Contents (Elt F) → (⟨S1x64, .f32⟩ : BufTy).Contents (Elt F)),
    unary main_v103 main_v104 (broadcastInDim S50000x64 ![0, 1] bcast_S1x64_S50000x64_0_1 : (⟨S1x64, .f32⟩ : BufTy).Contents (Elt F) → (⟨S50000x64, .f32⟩ : BufTy).Contents (Elt F)),
    binary main_v102 main_v104 main_v105 (addf : (⟨S50000x64, .f32⟩ : BufTy).Contents (Elt F) → (⟨S50000x64, .f32⟩ : BufTy).Contents (Elt F) → (⟨S50000x64, .f32⟩ : BufTy).Contents (Elt F)),
    binary main_v74 main_arg10 main_v106 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v105 main_v106 main_v107 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v107) (TRef.of (T := ⟨S50000x64, .f32⟩) main_call5_v0) (TRef.of (T := ⟨S50000x64, .f32⟩) main_v108) maximumf,
    TRef.nullary (TRef.of (T := ⟨S_, .f32⟩) main_call6_cst) (constant S_ .f32 0xFF800000#32),
    TRef.binary (TRef.of (T := ⟨S50000x64, .f32⟩) main_v108) (TRef.of (T := ⟨S_, .f32⟩) main_call6_cst) (TRef.of (T := ⟨S50000, .f32⟩) main_call6_v0) (fun x v => Host.reduce FloatOps.maximumf x v reducesTo_S50000x64_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf,
    TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x64, .f32⟩) main_call6_v4) (broadcastInDim S50000x64 ![0, 1] bcast_S50000x1_S50000x64_0_1),
    TRef.binary (TRef.of (T := ⟨S50000x64, .f32⟩) main_v108) (TRef.of (T := ⟨S50000x64, .f32⟩) main_call6_v4) (TRef.of (T := ⟨S50000x64, .f32⟩) main_call6_v5) subf,
    TRef.unary (TRef.of (T := ⟨S50000x64, .f32⟩) main_call6_v5) (TRef.of (T := ⟨S50000x64, .f32⟩) main_call6_v6) Host.exp,
    TRef.nullary (TRef.of (T := ⟨S_, .f32⟩) main_call6_cst_1) (constant S_ .f32 0x00000000#32),
    TRef.binary (TRef.of (T := ⟨S50000x64, .f32⟩) main_call6_v6) (TRef.of (T := ⟨S_, .f32⟩) main_call6_cst_1) (TRef.of (T := ⟨S50000, .f32⟩) main_call6_v7) (fun x v => Host.reduceAdd x v reducesTo_S50000x64_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x64, .f32⟩) main_call6_v10) (broadcastInDim S50000x64 ![0, 1] bcast_S50000x1_S50000x64_0_1),
    TRef.binary (TRef.of (T := ⟨S50000x64, .f32⟩) main_call6_v5) (TRef.of (T := ⟨S50000x64, .f32⟩) main_call6_v10) (TRef.of (T := ⟨S50000x64, .f32⟩) main_v109) subf ]

/-- The line is its five stretches in order. -/
theorem ops_split : (ops : List (HloOp τ sig (Elt F))) = opsA1 ++ (opsA2 ++ (opsB ++ (opsC ++ (opsD ++ opsE)))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The fold over two stretches is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Gcn.RefOps

end
-- ==== Proof.RefRun.lean ====
/-
  The reference program's run, read back stretch by stretch.

  Every weakly fair execution of the line of host operations terminates with each buffer at the fold of the
  operations' results over the launch contents. The fold is read one stretch at a time, from ANY contents `V` at the
  stretch's start, as the pure functions of Graph.lean applied to what the stretch reads; a called function's
  operations carry contents to their buffers' types and back, which is the identity. Composing the readings gives the
  result array as a function of the argument arrays. (The second and third rounds recompute the degree weights from
  the targets: the same function of the same array.)
-/
import proofs.«120820_j49323404427977_2_alg».proof.Proof.RefOps
import proofs.«120820_j49323404427977_2_alg».proof.Proof.Graph

noncomputable section

namespace Cert.Gcn.RefRun

open Cert.ReferenceIdeal Cert.ReferenceIdeal.Gen Cert.Gcn.Graph Cert.Gcn.RefOps Idealize.ShloMosaic Idealize.ShloMosaic.TcCoe Idealize.SL.Sem Idealize.ShloMosaic.StableHlo

/-- Contents carried to a buffer's type and back are the contents. -/
theorem ofBuf_toBuf {Val : EltTy → Type} {T : BufTy} (x : TRef sig T) (v : T.Contents Val) : x.ofBuf (x.toBuf v) = v := by
  obtain ⟨r, h, h2, h3⟩ := x
  subst h
  rfl

/-! The carrying is the identity at the buffers where a called function's operations meet the others. -/
set_option maxHeartbeats 200000 in
theorem toBuf_v11 (p1 p2 p3) (v : (⟨S50000, .f32⟩ : BufTy).Contents (Elt Ideal)) :
    (TRef.of (sig := sig) (T := ⟨S50000, .f32⟩) main_v11 p1 p2 p3).toBuf (Val := Elt Ideal) v = v := rfl
set_option maxHeartbeats 200000 in
theorem ofBuf_v10 (p1 p2 p3) (v : (⟨S50000, .f32⟩ : BufTy).Contents (Elt Ideal)) :
    (TRef.of (sig := sig) (T := ⟨S50000, .f32⟩) main_v10 p1 p2 p3).ofBuf (Val := Elt Ideal) v = v := rfl
set_option maxHeartbeats 200000 in
theorem ofBuf_cst_1 (p1 p2 p3) (v : (⟨S_, .f32⟩ : BufTy).Contents (Elt Ideal)) :
    (TRef.of (sig := sig) (T := ⟨S_, .f32⟩) main_cst_1 p1 p2 p3).ofBuf (Val := Elt Ideal) v = v := rfl
set_option maxHeartbeats 200000 in
theorem toBuf_v45 (p1 p2 p3) (v : (⟨S50000, .f32⟩ : BufTy).Contents (Elt Ideal)) :
    (TRef.of (sig := sig) (T := ⟨S50000, .f32⟩) main_v45 p1 p2 p3).toBuf (Val := Elt Ideal) v = v := rfl
set_option maxHeartbeats 200000 in
theorem ofBuf_v44 (p1 p2 p3) (v : (⟨S50000, .f32⟩ : BufTy).Contents (Elt Ideal)) :
    (TRef.of (sig := sig) (T := ⟨S50000, .f32⟩) main_v44 p1 p2 p3).ofBuf (Val := Elt Ideal) v = v := rfl
set_option maxHeartbeats 200000 in
theorem ofBuf_cst_9 (p1 p2 p3) (v : (⟨S_, .f32⟩ : BufTy).Contents (Elt Ideal)) :
    (TRef.of (sig := sig) (T := ⟨S_, .f32⟩) main_cst_9 p1 p2 p3).ofBuf (Val := Elt Ideal) v = v := rfl
set_option maxHeartbeats 200000 in
theorem toBuf_v79 (p1 p2 p3) (v : (⟨S50000, .f32⟩ : BufTy).Contents (Elt Ideal)) :
    (TRef.of (sig := sig) (T := ⟨S50000, .f32⟩) main_v79 p1 p2 p3).toBuf (Val := Elt Ideal) v = v := rfl
set_option maxHeartbeats 200000 in
theorem ofBuf_v78 (p1 p2 p3) (v : (⟨S50000, .f32⟩ : BufTy).Contents (Elt Ideal)) :
    (TRef.of (sig := sig) (T := ⟨S50000, .f32⟩) main_v78 p1 p2 p3).ofBuf (Val := Elt Ideal) v = v := rfl
set_option maxHeartbeats 200000 in
theorem ofBuf_cst_18 (p1 p2 p3) (v : (⟨S_, .f32⟩ : BufTy).Contents (Elt Ideal)) :
    (TRef.of (sig := sig) (T := ⟨S_, .f32⟩) main_cst_18 p1 p2 p3).ofBuf (Val := Elt Ideal) v = v := rfl
set_option maxHeartbeats 200000 in
theorem toBuf_v40 (p1 p2 p3) (v : (⟨S50000x128, .f32⟩ : BufTy).Contents (Elt Ideal)) :
    (TRef.of (sig := sig) (T := ⟨S50000x128, .f32⟩) main_v40 p1 p2 p3).toBuf (Val := Elt Ideal) v = v := rfl
set_option maxHeartbeats 200000 in
theorem ofBuf_v39 (p1 p2 p3) (v : (⟨S50000x128, .f32⟩ : BufTy).Contents (Elt Ideal)) :
    (TRef.of (sig := sig) (T := ⟨S50000x128, .f32⟩) main_v39 p1 p2 p3).ofBuf (Val := Elt Ideal) v = v := rfl
set_option maxHeartbeats 200000 in
theorem toBuf_v74 (p1 p2 p3) (v : (⟨S50000x128, .f32⟩ : BufTy).Contents (Elt Ideal)) :
    (TRef.of (sig := sig) (T := ⟨S50000x128, .f32⟩) main_v74 p1 p2 p3).toBuf (Val := Elt Ideal) v = v := rfl
set_option maxHeartbeats 200000 in
theorem ofBuf_v73 (p1 p2 p3) (v : (⟨S50000x128, .f32⟩ : BufTy).Contents (Elt Ideal)) :
    (TRef.of (sig := sig) (T := ⟨S50000x128, .f32⟩) main_v73 p1 p2 p3).ofBuf (Val := Elt Ideal) v = v := rfl
set_option maxHeartbeats 200000 in
theorem toBuf_v108 (p1 p2 p3) (v : (⟨S50000x64, .f32⟩ : BufTy).Contents (Elt Ideal)) :
    (TRef.of (sig := sig) (T := ⟨S50000x64, .f32⟩) main_v108 p1 p2 p3).toBuf (Val := Elt Ideal) v = v := rfl
set_option maxHeartbeats 200000 in
theorem ofBuf_v107 (p1 p2 p3) (v : (⟨S50000x64, .f32⟩ : BufTy).Contents (Elt Ideal)) :
    (TRef.of (sig := sig) (T := ⟨S50000x64, .f32⟩) main_v107 p1 p2 p3).ofBuf (Val := Elt Ideal) v = v := rfl
set_option maxHeartbeats 200000 in
theorem ofBuf_v108 (p1 p2 p3) (v : (⟨S50000x64, .f32⟩ : BufTy).Contents (Elt Ideal)) :
    (TRef.of (sig := sig) (T := ⟨S50000x64, .f32⟩) main_v108 p1 p2 p3).ofBuf (Val := Elt Ideal) v = v := rfl
set_option maxHeartbeats 200000 in
theorem toBuf_v109 (p1 p2 p3) (v : (⟨S50000x64, .f32⟩ : BufTy).Contents (Elt Ideal)) :
    (TRef.of (sig := sig) (T := ⟨S50000x64, .f32⟩) main_v109 p1 p2 p3).toBuf (Val := Elt Ideal) v = v := rfl

section Stretches

variable (V : Valuation τ sig (Elt Ideal))

/-! ### The sources and the targets -/
theorem A_row : after (opsA1 (F := Ideal)) V (Proc.devRef .tc main_v3) = rowT (V (Proc.devRef .tc main_arg1)) := by
  after_results_simp
  unfold rowT
  rfl
theorem A_col : after (opsA1 (F := Ideal)) V (Proc.devRef .tc main_v6) = colT (V (Proc.devRef .tc main_arg1)) := by
  after_results_simp
  unfold colT
  rfl
theorem A_keep_arg0 : after (opsA1 (F := Ideal)) V (Proc.devRef .tc main_arg0) = V (Proc.devRef .tc main_arg0) := by after_results_simp
theorem A_keep_arg2 : after (opsA1 (F := Ideal)) V (Proc.devRef .tc main_arg2) = V (Proc.devRef .tc main_arg2) := by after_results_simp
theorem A_keep_arg3 : after (opsA1 (F := Ideal)) V (Proc.devRef .tc main_arg3) = V (Proc.devRef .tc main_arg3) := by after_results_simp
theorem A_keep_arg4 : after (opsA1 (F := Ideal)) V (Proc.devRef .tc main_arg4) = V (Proc.devRef .tc main_arg4) := by after_results_simp
theorem A_keep_arg5 : after (opsA1 (F := Ideal)) V (Proc.devRef .tc main_arg5) = V (Proc.devRef .tc main_arg5) := by after_results_simp
theorem A_keep_arg6 : after (opsA1 (F := Ideal)) V (Proc.devRef .tc main_arg6) = V (Proc.devRef .tc main_arg6) := by after_results_simp
theorem A_keep_arg7 : after (opsA1 (F := Ideal)) V (Proc.devRef .tc main_arg7) = V (Proc.devRef .tc main_arg7) := by after_results_simp
theorem A_keep_arg8 : after (opsA1 (F := Ideal)) V (Proc.devRef .tc main_arg8) = V (Proc.devRef .tc main_arg8) := by after_results_simp
theorem A_keep_arg9 : after (opsA1 (F := Ideal)) V (Proc.devRef .tc main_arg9) = V (Proc.devRef .tc main_arg9) := by after_results_simp
theorem A_keep_arg10 : after (opsA1 (F := Ideal)) V (Proc.devRef .tc main_arg10) = V (Proc.devRef .tc main_arg10) := by after_results_simp

/-! ### The degree weights, from contents that hold the targets -/
theorem A2_wgt : after (opsA2 (F := Ideal)) V (Proc.devRef .tc main_v20) = wgtT (V (Proc.devRef .tc main_v6)) := by
  after_results_simp
  simp only [ofBuf_toBuf]
  rw [toBuf_v11, ofBuf_v10, ofBuf_cst_1]
  unfold wgtT normIdx
  rfl
theorem A2_keep_v3 : after (opsA2 (F := Ideal)) V (Proc.devRef .tc main_v3) = V (Proc.devRef .tc main_v3) := by after_results_simp
theorem A2_keep_v6 : after (opsA2 (F := Ideal)) V (Proc.devRef .tc main_v6) = V (Proc.devRef .tc main_v6) := by after_results_simp
theorem A2_keep_arg0 : after (opsA2 (F := Ideal)) V (Proc.devRef .tc main_arg0) = V (Proc.devRef .tc main_arg0) := by after_results_simp
theorem A2_keep_arg2 : after (opsA2 (F := Ideal)) V (Proc.devRef .tc main_arg2) = V (Proc.devRef .tc main_arg2) := by after_results_simp
theorem A2_keep_arg3 : after (opsA2 (F := Ideal)) V (Proc.devRef .tc main_arg3) = V (Proc.devRef .tc main_arg3) := by after_results_simp
theorem A2_keep_arg4 : after (opsA2 (F := Ideal)) V (Proc.devRef .tc main_arg4) = V (Proc.devRef .tc main_arg4) := by after_results_simp
theorem A2_keep_arg5 : after (opsA2 (F := Ideal)) V (Proc.devRef .tc main_arg5) = V (Proc.devRef .tc main_arg5) := by after_results_simp
theorem A2_keep_arg6 : after (opsA2 (F := Ideal)) V (Proc.devRef .tc main_arg6) = V (Proc.devRef .tc main_arg6) := by after_results_simp
theorem A2_keep_arg7 : after (opsA2 (F := Ideal)) V (Proc.devRef .tc main_arg7) = V (Proc.devRef .tc main_arg7) := by after_results_simp
theorem A2_keep_arg8 : after (opsA2 (F := Ideal)) V (Proc.devRef .tc main_arg8) = V (Proc.devRef .tc main_arg8) := by after_results_simp
theorem A2_keep_arg9 : after (opsA2 (F := Ideal)) V (Proc.devRef .tc main_arg9) = V (Proc.devRef .tc main_arg9) := by after_results_simp
theorem A2_keep_arg10 : after (opsA2 (F := Ideal)) V (Proc.devRef .tc main_arg10) = V (Proc.devRef .tc main_arg10) := by after_results_simp

/-! ### Round 1 -/
theorem B_out : after (opsB (F := Ideal)) V (Proc.devRef .tc main_v40)
    = refDense128 (aggT (V (Proc.devRef .tc main_arg0)) (V (Proc.devRef .tc main_v3)) (V (Proc.devRef .tc main_v6)) (V (Proc.devRef .tc main_v20))) (V (Proc.devRef .tc main_arg0)) (V (Proc.devRef .tc main_arg2)) (V (Proc.devRef .tc main_arg3)) (V (Proc.devRef .tc main_arg4)) := by
  after_results_simp
  simp only [ofBuf_toBuf]
  rw [toBuf_v40, ofBuf_v39]
  unfold refDense128 aggT normIdx
  rfl
theorem B_keep_v3 : after (opsB (F := Ideal)) V (Proc.devRef .tc main_v3) = V (Proc.devRef .tc main_v3) := by after_results_simp
theorem B_keep_v6 : after (opsB (F := Ideal)) V (Proc.devRef .tc main_v6) = V (Proc.devRef .tc main_v6) := by after_results_simp
theorem B_keep_arg5 : after (opsB (F := Ideal)) V (Proc.devRef .tc main_arg5) = V (Proc.devRef .tc main_arg5) := by after_results_simp
theorem B_keep_arg6 : after (opsB (F := Ideal)) V (Proc.devRef .tc main_arg6) = V (Proc.devRef .tc main_arg6) := by after_results_simp
theorem B_keep_arg7 : after (opsB (F := Ideal)) V (Proc.devRef .tc main_arg7) = V (Proc.devRef .tc main_arg7) := by after_results_simp
theorem B_keep_arg8 : after (opsB (F := Ideal)) V (Proc.devRef .tc main_arg8) = V (Proc.devRef .tc main_arg8) := by after_results_simp
theorem B_keep_arg9 : after (opsB (F := Ideal)) V (Proc.devRef .tc main_arg9) = V (Proc.devRef .tc main_arg9) := by after_results_simp
theorem B_keep_arg10 : after (opsB (F := Ideal)) V (Proc.devRef .tc main_arg10) = V (Proc.devRef .tc main_arg10) := by after_results_simp

/-! ### Round 2 -/
theorem C_out : after (opsC (F := Ideal)) V (Proc.devRef .tc main_v74)
    = refDense128 (aggT (V (Proc.devRef .tc main_v40)) (V (Proc.devRef .tc main_v3)) (V (Proc.devRef .tc main_v6)) (wgtT (V (Proc.devRef .tc main_v6)))) (V (Proc.devRef .tc main_v40)) (V (Proc.devRef .tc main_arg5)) (V (Proc.devRef .tc main_arg6)) (V (Proc.devRef .tc main_arg7)) := by
  after_results_simp
  simp only [ofBuf_toBuf]
  rw [toBuf_v74, ofBuf_v73, toBuf_v45, ofBuf_v44, ofBuf_cst_9]
  unfold refDense128 aggT wgtT normIdx
  rfl
theorem C_keep_v3 : after (opsC (F := Ideal)) V (Proc.devRef .tc main_v3) = V (Proc.devRef .tc main_v3) := by after_results_simp
theorem C_keep_v6 : after (opsC (F := Ideal)) V (Proc.devRef .tc main_v6) = V (Proc.devRef .tc main_v6) := by after_results_simp
theorem C_keep_arg8 : after (opsC (F := Ideal)) V (Proc.devRef .tc main_arg8) = V (Proc.devRef .tc main_arg8) := by after_results_simp
theorem C_keep_arg9 : after (opsC (F := Ideal)) V (Proc.devRef .tc main_arg9) = V (Proc.devRef .tc main_arg9) := by after_results_simp
theorem C_keep_arg10 : after (opsC (F := Ideal)) V (Proc.devRef .tc main_arg10) = V (Proc.devRef .tc main_arg10) := by after_results_simp

/-! ### Round 3 -/
theorem D_out : after (opsD (F := Ideal)) V (Proc.devRef .tc main_v108)
    = refDense64 (aggT (V (Proc.devRef .tc main_v74)) (V (Proc.devRef .tc main_v3)) (V (Proc.devRef .tc main_v6)) (wgtT (V (Proc.devRef .tc main_v6)))) (V (Proc.devRef .tc main_v74)) (V (Proc.devRef .tc main_arg8)) (V (Proc.devRef .tc main_arg9)) (V (Proc.devRef .tc main_arg10)) := by
  after_results_simp
  simp only [ofBuf_toBuf]
  rw [toBuf_v108, ofBuf_v107, toBuf_v79, ofBuf_v78, ofBuf_cst_18]
  unfold refDense64 aggT wgtT normIdx
  rfl

/-! ### The log-softmax -/
theorem E_out : after (opsE (F := Ideal)) V (Proc.devRef .tc main_v109) = refLogSoftmax (V (Proc.devRef .tc main_v108)) := by
  after_results_simp
  simp only [ofBuf_toBuf]
  rw [toBuf_v109, ofBuf_v108]
  unfold refLogSoftmax
  rfl

end Stretches

/-- The three rounds and the log-softmax as one function of the argument arrays. -/
def result (x : Arr S50000x128 .f32) (e : Arr S2x800000 .i32) (w1 : Arr S128x128 .f32) (b1 : Arr S128 .f32) (r1 : Arr S128x128 .f32)
    (w2 : Arr S128x128 .f32) (b2 : Arr S128 .f32) (r2 : Arr S128x128 .f32) (w3 : Arr S128x64 .f32) (b3 : Arr S64 .f32) (r3 : Arr S128x64 .f32) :
    Arr S50000x64 .f32 :=
  refLogSoftmax (refDense64
    (aggT (refDense128 (aggT (refDense128 (aggT x (rowT e) (colT e) (wgtT (colT e))) x w1 b1 r1) (rowT e) (colT e) (wgtT (colT e)))
        (refDense128 (aggT x (rowT e) (colT e) (wgtT (colT e))) x w1 b1 r1) w2 b2 r2) (rowT e) (colT e) (wgtT (colT e)))
    (refDense128 (aggT (refDense128 (aggT x (rowT e) (colT e) (wgtT (colT e))) x w1 b1 r1) (rowT e) (colT e) (wgtT (colT e)))
        (refDense128 (aggT x (rowT e) (colT e) (wgtT (colT e))) x w1 b1 r1) w2 b2 r2) w3 b3 r3)

/-- The result buffer after the whole line, from any contents. -/
theorem value (V : Valuation τ sig (Elt Ideal)) : after (ops (F := Ideal)) V (Proc.devRef .tc main_v109)
    = result (V (Proc.devRef .tc main_arg0)) (V (Proc.devRef .tc main_arg1)) (V (Proc.devRef .tc main_arg2)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) (V (Proc.devRef .tc main_arg10)) := by
  unfold result
  rw [ops_split, after_append, after_append, after_append, after_append, after_append, E_out, D_out, C_out, B_out]
  rw [C_keep_v3, C_keep_v6, C_keep_arg8, C_keep_arg9, C_keep_arg10, B_keep_v3, B_keep_v6, B_keep_arg5, B_keep_arg6, B_keep_arg7,
    B_keep_arg8, B_keep_arg9, B_keep_arg10, A2_wgt, A2_keep_v3, A2_keep_v6, A2_keep_arg0, A2_keep_arg2, A2_keep_arg3, A2_keep_arg4,
    A2_keep_arg5, A2_keep_arg6, A2_keep_arg7, A2_keep_arg8, A2_keep_arg9, A2_keep_arg10, A_row, A_col, A_keep_arg0, A_keep_arg2,
    A_keep_arg3, A_keep_arg4, A_keep_arg5, A_keep_arg6, A_keep_arg7, A_keep_arg8, A_keep_arg9, A_keep_arg10]

section Kept
variable (V : Valuation τ sig (Elt Ideal))
theorem A1_kept_arg0 : after (opsA1 (F := Ideal)) V (Proc.devRef .tc main_arg0) = V (Proc.devRef .tc main_arg0) := by after_results_simp
theorem A1_kept_arg1 : after (opsA1 (F := Ideal)) V (Proc.devRef .tc main_arg1) = V (Proc.devRef .tc main_arg1) := by after_results_simp
theorem A1_kept_arg2 : after (opsA1 (F := Ideal)) V (Proc.devRef .tc main_arg2) = V (Proc.devRef .tc main_arg2) := by after_results_simp
theorem A1_kept_arg3 : after (opsA1 (F := Ideal)) V (Proc.devRef .tc main_arg3) = V (Proc.devRef .tc main_arg3) := by after_results_simp
theorem A1_kept_arg4 : after (opsA1 (F := Ideal)) V (Proc.devRef .tc main_arg4) = V (Proc.devRef .tc main_arg4) := by after_results_simp
theorem A1_kept_arg5 : after (opsA1 (F := Ideal)) V (Proc.devRef .tc main_arg5) = V (Proc.devRef .tc main_arg5) := by after_results_simp
theorem A1_kept_arg6 : after (opsA1 (F := Ideal)) V (Proc.devRef .tc main_arg6) = V (Proc.devRef .tc main_arg6) := by after_results_simp
theorem A1_kept_arg7 : after (opsA1 (F := Ideal)) V (Proc.devRef .tc main_arg7) = V (Proc.devRef .tc main_arg7) := by after_results_simp
theorem A1_kept_arg8 : after (opsA1 (F := Ideal)) V (Proc.devRef .tc main_arg8) = V (Proc.devRef .tc main_arg8) := by after_results_simp
theorem A1_kept_arg9 : after (opsA1 (F := Ideal)) V (Proc.devRef .tc main_arg9) = V (Proc.devRef .tc main_arg9) := by after_results_simp
theorem A1_kept_arg10 : after (opsA1 (F := Ideal)) V (Proc.devRef .tc main_arg10) = V (Proc.devRef .tc main_arg10) := by after_results_simp
theorem A2_kept_arg0 : after (opsA2 (F := Ideal)) V (Proc.devRef .tc main_arg0) = V (Proc.devRef .tc main_arg0) := by after_results_simp
theorem A2_kept_arg1 : after (opsA2 (F := Ideal)) V (Proc.devRef .tc main_arg1) = V (Proc.devRef .tc main_arg1) := by after_results_simp
theorem A2_kept_arg2 : after (opsA2 (F := Ideal)) V (Proc.devRef .tc main_arg2) = V (Proc.devRef .tc main_arg2) := by after_results_simp
theorem A2_kept_arg3 : after (opsA2 (F := Ideal)) V (Proc.devRef .tc main_arg3) = V (Proc.devRef .tc main_arg3) := by after_results_simp
theorem A2_kept_arg4 : after (opsA2 (F := Ideal)) V (Proc.devRef .tc main_arg4) = V (Proc.devRef .tc main_arg4) := by after_results_simp
theorem A2_kept_arg5 : after (opsA2 (F := Ideal)) V (Proc.devRef .tc main_arg5) = V (Proc.devRef .tc main_arg5) := by after_results_simp
theorem A2_kept_arg6 : after (opsA2 (F := Ideal)) V (Proc.devRef .tc main_arg6) = V (Proc.devRef .tc main_arg6) := by after_results_simp
theorem A2_kept_arg7 : after (opsA2 (F := Ideal)) V (Proc.devRef .tc main_arg7) = V (Proc.devRef .tc main_arg7) := by after_results_simp
theorem A2_kept_arg8 : after (opsA2 (F := Ideal)) V (Proc.devRef .tc main_arg8) = V (Proc.devRef .tc main_arg8) := by after_results_simp
theorem A2_kept_arg9 : after (opsA2 (F := Ideal)) V (Proc.devRef .tc main_arg9) = V (Proc.devRef .tc main_arg9) := by after_results_simp
theorem A2_kept_arg10 : after (opsA2 (F := Ideal)) V (Proc.devRef .tc main_arg10) = V (Proc.devRef .tc main_arg10) := by after_results_simp
theorem B_kept_arg0 : after (opsB (F := Ideal)) V (Proc.devRef .tc main_arg0) = V (Proc.devRef .tc main_arg0) := by after_results_simp
theorem B_kept_arg1 : after (opsB (F := Ideal)) V (Proc.devRef .tc main_arg1) = V (Proc.devRef .tc main_arg1) := by after_results_simp
theorem B_kept_arg2 : after (opsB (F := Ideal)) V (Proc.devRef .tc main_arg2) = V (Proc.devRef .tc main_arg2) := by after_results_simp
theorem B_kept_arg3 : after (opsB (F := Ideal)) V (Proc.devRef .tc main_arg3) = V (Proc.devRef .tc main_arg3) := by after_results_simp
theorem B_kept_arg4 : after (opsB (F := Ideal)) V (Proc.devRef .tc main_arg4) = V (Proc.devRef .tc main_arg4) := by after_results_simp
theorem B_kept_arg5 : after (opsB (F := Ideal)) V (Proc.devRef .tc main_arg5) = V (Proc.devRef .tc main_arg5) := by after_results_simp
theorem B_kept_arg6 : after (opsB (F := Ideal)) V (Proc.devRef .tc main_arg6) = V (Proc.devRef .tc main_arg6) := by after_results_simp
theorem B_kept_arg7 : after (opsB (F := Ideal)) V (Proc.devRef .tc main_arg7) = V (Proc.devRef .tc main_arg7) := by after_results_simp
theorem B_kept_arg8 : after (opsB (F := Ideal)) V (Proc.devRef .tc main_arg8) = V (Proc.devRef .tc main_arg8) := by after_results_simp
theorem B_kept_arg9 : after (opsB (F := Ideal)) V (Proc.devRef .tc main_arg9) = V (Proc.devRef .tc main_arg9) := by after_results_simp
theorem B_kept_arg10 : after (opsB (F := Ideal)) V (Proc.devRef .tc main_arg10) = V (Proc.devRef .tc main_arg10) := by after_results_simp
theorem C_kept_arg0 : after (opsC (F := Ideal)) V (Proc.devRef .tc main_arg0) = V (Proc.devRef .tc main_arg0) := by after_results_simp
theorem C_kept_arg1 : after (opsC (F := Ideal)) V (Proc.devRef .tc main_arg1) = V (Proc.devRef .tc main_arg1) := by after_results_simp
theorem C_kept_arg2 : after (opsC (F := Ideal)) V (Proc.devRef .tc main_arg2) = V (Proc.devRef .tc main_arg2) := by after_results_simp
theorem C_kept_arg3 : after (opsC (F := Ideal)) V (Proc.devRef .tc main_arg3) = V (Proc.devRef .tc main_arg3) := by after_results_simp
theorem C_kept_arg4 : after (opsC (F := Ideal)) V (Proc.devRef .tc main_arg4) = V (Proc.devRef .tc main_arg4) := by after_results_simp
theorem C_kept_arg5 : after (opsC (F := Ideal)) V (Proc.devRef .tc main_arg5) = V (Proc.devRef .tc main_arg5) := by after_results_simp
theorem C_kept_arg6 : after (opsC (F := Ideal)) V (Proc.devRef .tc main_arg6) = V (Proc.devRef .tc main_arg6) := by after_results_simp
theorem C_kept_arg7 : after (opsC (F := Ideal)) V (Proc.devRef .tc main_arg7) = V (Proc.devRef .tc main_arg7) := by after_results_simp
theorem C_kept_arg8 : after (opsC (F := Ideal)) V (Proc.devRef .tc main_arg8) = V (Proc.devRef .tc main_arg8) := by after_results_simp
theorem C_kept_arg9 : after (opsC (F := Ideal)) V (Proc.devRef .tc main_arg9) = V (Proc.devRef .tc main_arg9) := by after_results_simp
theorem C_kept_arg10 : after (opsC (F := Ideal)) V (Proc.devRef .tc main_arg10) = V (Proc.devRef .tc main_arg10) := by after_results_simp
theorem D_kept_arg0 : after (opsD (F := Ideal)) V (Proc.devRef .tc main_arg0) = V (Proc.devRef .tc main_arg0) := by after_results_simp
theorem D_kept_arg1 : after (opsD (F := Ideal)) V (Proc.devRef .tc main_arg1) = V (Proc.devRef .tc main_arg1) := by after_results_simp
theorem D_kept_arg2 : after (opsD (F := Ideal)) V (Proc.devRef .tc main_arg2) = V (Proc.devRef .tc main_arg2) := by after_results_simp
theorem D_kept_arg3 : after (opsD (F := Ideal)) V (Proc.devRef .tc main_arg3) = V (Proc.devRef .tc main_arg3) := by after_results_simp
theorem D_kept_arg4 : after (opsD (F := Ideal)) V (Proc.devRef .tc main_arg4) = V (Proc.devRef .tc main_arg4) := by after_results_simp
theorem D_kept_arg5 : after (opsD (F := Ideal)) V (Proc.devRef .tc main_arg5) = V (Proc.devRef .tc main_arg5) := by after_results_simp
theorem D_kept_arg6 : after (opsD (F := Ideal)) V (Proc.devRef .tc main_arg6) = V (Proc.devRef .tc main_arg6) := by after_results_simp
theorem D_kept_arg7 : after (opsD (F := Ideal)) V (Proc.devRef .tc main_arg7) = V (Proc.devRef .tc main_arg7) := by after_results_simp
theorem D_kept_arg8 : after (opsD (F := Ideal)) V (Proc.devRef .tc main_arg8) = V (Proc.devRef .tc main_arg8) := by after_results_simp
theorem D_kept_arg9 : after (opsD (F := Ideal)) V (Proc.devRef .tc main_arg9) = V (Proc.devRef .tc main_arg9) := by after_results_simp
theorem D_kept_arg10 : after (opsD (F := Ideal)) V (Proc.devRef .tc main_arg10) = V (Proc.devRef .tc main_arg10) := by after_results_simp
theorem E_kept_arg0 : after (opsE (F := Ideal)) V (Proc.devRef .tc main_arg0) = V (Proc.devRef .tc main_arg0) := by after_results_simp
theorem E_kept_arg1 : after (opsE (F := Ideal)) V (Proc.devRef .tc main_arg1) = V (Proc.devRef .tc main_arg1) := by after_results_simp
theorem E_kept_arg2 : after (opsE (F := Ideal)) V (Proc.devRef .tc main_arg2) = V (Proc.devRef .tc main_arg2) := by after_results_simp
theorem E_kept_arg3 : after (opsE (F := Ideal)) V (Proc.devRef .tc main_arg3) = V (Proc.devRef .tc main_arg3) := by after_results_simp
theorem E_kept_arg4 : after (opsE (F := Ideal)) V (Proc.devRef .tc main_arg4) = V (Proc.devRef .tc main_arg4) := by after_results_simp
theorem E_kept_arg5 : after (opsE (F := Ideal)) V (Proc.devRef .tc main_arg5) = V (Proc.devRef .tc main_arg5) := by after_results_simp
theorem E_kept_arg6 : after (opsE (F := Ideal)) V (Proc.devRef .tc main_arg6) = V (Proc.devRef .tc main_arg6) := by after_results_simp
theorem E_kept_arg7 : after (opsE (F := Ideal)) V (Proc.devRef .tc main_arg7) = V (Proc.devRef .tc main_arg7) := by after_results_simp
theorem E_kept_arg8 : after (opsE (F := Ideal)) V (Proc.devRef .tc main_arg8) = V (Proc.devRef .tc main_arg8) := by after_results_simp
theorem E_kept_arg9 : after (opsE (F := Ideal)) V (Proc.devRef .tc main_arg9) = V (Proc.devRef .tc main_arg9) := by after_results_simp
theorem E_kept_arg10 : after (opsE (F := Ideal)) V (Proc.devRef .tc main_arg10) = V (Proc.devRef .tc main_arg10) := by after_results_simp
end Kept

theorem kept_arg0 (V : Valuation τ sig (Elt Ideal)) : after (ops (F := Ideal)) V (Proc.devRef .tc main_arg0) = V (Proc.devRef .tc main_arg0) := by
  rw [ops_split, after_append, after_append, after_append, after_append, after_append, E_kept_arg0, D_kept_arg0, C_kept_arg0, B_kept_arg0, A2_kept_arg0, A1_kept_arg0]
theorem kept_arg1 (V : Valuation τ sig (Elt Ideal)) : after (ops (F := Ideal)) V (Proc.devRef .tc main_arg1) = V (Proc.devRef .tc main_arg1) := by
  rw [ops_split, after_append, after_append, after_append, after_append, after_append, E_kept_arg1, D_kept_arg1, C_kept_arg1, B_kept_arg1, A2_kept_arg1, A1_kept_arg1]
theorem kept_arg2 (V : Valuation τ sig (Elt Ideal)) : after (ops (F := Ideal)) V (Proc.devRef .tc main_arg2) = V (Proc.devRef .tc main_arg2) := by
  rw [ops_split, after_append, after_append, after_append, after_append, after_append, E_kept_arg2, D_kept_arg2, C_kept_arg2, B_kept_arg2, A2_kept_arg2, A1_kept_arg2]
theorem kept_arg3 (V : Valuation τ sig (Elt Ideal)) : after (ops (F := Ideal)) V (Proc.devRef .tc main_arg3) = V (Proc.devRef .tc main_arg3) := by
  rw [ops_split, after_append, after_append, after_append, after_append, after_append, E_kept_arg3, D_kept_arg3, C_kept_arg3, B_kept_arg3, A2_kept_arg3, A1_kept_arg3]
theorem kept_arg4 (V : Valuation τ sig (Elt Ideal)) : after (ops (F := Ideal)) V (Proc.devRef .tc main_arg4) = V (Proc.devRef .tc main_arg4) := by
  rw [ops_split, after_append, after_append, after_append, after_append, after_append, E_kept_arg4, D_kept_arg4, C_kept_arg4, B_kept_arg4, A2_kept_arg4, A1_kept_arg4]
theorem kept_arg5 (V : Valuation τ sig (Elt Ideal)) : after (ops (F := Ideal)) V (Proc.devRef .tc main_arg5) = V (Proc.devRef .tc main_arg5) := by
  rw [ops_split, after_append, after_append, after_append, after_append, after_append, E_kept_arg5, D_kept_arg5, C_kept_arg5, B_kept_arg5, A2_kept_arg5, A1_kept_arg5]
theorem kept_arg6 (V : Valuation τ sig (Elt Ideal)) : after (ops (F := Ideal)) V (Proc.devRef .tc main_arg6) = V (Proc.devRef .tc main_arg6) := by
  rw [ops_split, after_append, after_append, after_append, after_append, after_append, E_kept_arg6, D_kept_arg6, C_kept_arg6, B_kept_arg6, A2_kept_arg6, A1_kept_arg6]
theorem kept_arg7 (V : Valuation τ sig (Elt Ideal)) : after (ops (F := Ideal)) V (Proc.devRef .tc main_arg7) = V (Proc.devRef .tc main_arg7) := by
  rw [ops_split, after_append, after_append, after_append, after_append, after_append, E_kept_arg7, D_kept_arg7, C_kept_arg7, B_kept_arg7, A2_kept_arg7, A1_kept_arg7]
theorem kept_arg8 (V : Valuation τ sig (Elt Ideal)) : after (ops (F := Ideal)) V (Proc.devRef .tc main_arg8) = V (Proc.devRef .tc main_arg8) := by
  rw [ops_split, after_append, after_append, after_append, after_append, after_append, E_kept_arg8, D_kept_arg8, C_kept_arg8, B_kept_arg8, A2_kept_arg8, A1_kept_arg8]
theorem kept_arg9 (V : Valuation τ sig (Elt Ideal)) : after (ops (F := Ideal)) V (Proc.devRef .tc main_arg9) = V (Proc.devRef .tc main_arg9) := by
  rw [ops_split, after_append, after_append, after_append, after_append, after_append, E_kept_arg9, D_kept_arg9, C_kept_arg9, B_kept_arg9, A2_kept_arg9, A1_kept_arg9]
theorem kept_arg10 (V : Valuation τ sig (Elt Ideal)) : after (ops (F := Ideal)) V (Proc.devRef .tc main_arg10) = V (Proc.devRef .tc main_arg10) := by
  rw [ops_split, after_append, after_append, after_append, after_append, after_append, E_kept_arg10, D_kept_arg10, C_kept_arg10, B_kept_arg10, A2_kept_arg10, A1_kept_arg10]

/-- Every weakly fair execution of the reference terminates, nothing faulting, with the result array at `result` of the
    argument arrays and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v109).trans (value _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _)⟩)
    (run_seq scopedRefs_eq scopedSems_eq defs main (fun _ => ops) main_eq (fun _ => ops_sub) m ρ)

end Cert.Gcn.RefRun

end
-- ==== Proof.RefLayers.lean ====
/-
  The reference's dense step and log-softmax, read entry by entry: they are the functions of Spec.lean.

  A whole-array product read at `(p, q)` is the sum over the 128 contracted features; the bias, broadcast to a row
  and then down the rows, reads its entry `q`; the zero the maximum is taken with is the zero pattern everywhere.
  For the log-softmax: the row maximum is the fold of `max` over the row's 64 entries from minus infinity — the
  reference takes the maximum with minus infinity once more, which changes nothing —; the row sum of the
  exponentials starts from the zero pattern, which is the real zero.
-/
import proofs.«120820_j49323404427977_2_alg».proof.Proof.Graph
import proofs.«120820_j49323404427977_2_alg».proof.Proof.Spec
import Idealize.ShloMosaic.Lib.ValueIdx
import Idealize.ShloMosaic.Lib.Pipeline.Value
import Idealize.ShloMosaic.PureOps.Ideal.Laws

noncomputable section

namespace Cert.Gcn.RefLayers

open Idealize.ShloMosaic Idealize.ShloMosaic.ValueIdx Cert.ReferenceIdeal Cert.ReferenceIdeal.Gen Cert.Gcn Cert.Gcn.Graph

theorem dg128_lhs0 (i : S50000x128.Idx) (c : dot_S50000x128_S128x128_S50000x128_1_0_0_1_n_n.contr.Idx) : (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dg128_lhs1 (i : S50000x128.Idx) (c : dot_S50000x128_S128x128_S50000x128_1_0_0_1_n_n.contr.Idx) : (dot_S50000x128_S128x128_S50000x128_1_0_0_1_n_n.lhsIdx i c 1).val = (c ⟨0, by decide⟩).val :=
  dot_S50000x128_S128x128_S50000x128_1_0_0_1_n_n.lhsIdx_val_of_single rfl i c
theorem dg128_rhs0 (i : S50000x128.Idx) (c : dot_S50000x128_S128x128_S50000x128_1_0_0_1_n_n.contr.Idx) : (dot_S50000x128_S128x128_S50000x128_1_0_0_1_n_n.rhsIdx i c 0).val = (c ⟨0, by decide⟩).val :=
  dot_S50000x128_S128x128_S50000x128_1_0_0_1_n_n.rhsIdx_val_of_single rfl i c
theorem dg128_rhs1 (i : S50000x128.Idx) (c : dot_S50000x128_S128x128_S50000x128_1_0_0_1_n_n.contr.Idx) : (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product read at an entry: the plain sum over the contracted axis of the row of the left factor against the
    column of the right one. -/
theorem dg128_apply {φ₁ φ₂ : FTy} (lhs : FVec Ideal S50000x128 φ₁) (rhs : FVec Ideal S128x128 φ₂) (p : Fin 50000) (q : Fin 128) :
    Host.dotGeneral dot_S50000x128_S128x128_S50000x128_1_0_0_1_n_n none lhs rhs (ix2 p q) = ∑ k : Fin 128, lhs (ix2 p k) * rhs (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact dg128_lhs0 _ _
    | ⟨1, _⟩ => exact (dg128_lhs1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (dg128_rhs0 _ _).trans hk
    | ⟨1, _⟩ => exact dg128_rhs1 _ _)
  rw [el, er]

theorem dg64_lhs0 (i : S50000x64.Idx) (c : dot_S50000x128_S128x64_S50000x64_1_0_0_1_n_n.contr.Idx) : (dot_S50000x128_S128x64_S50000x64_1_0_0_1_n_n.lhsIdx i c 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dg64_lhs1 (i : S50000x64.Idx) (c : dot_S50000x128_S128x64_S50000x64_1_0_0_1_n_n.contr.Idx) : (dot_S50000x128_S128x64_S50000x64_1_0_0_1_n_n.lhsIdx i c 1).val = (c ⟨0, by decide⟩).val :=
  dot_S50000x128_S128x64_S50000x64_1_0_0_1_n_n.lhsIdx_val_of_single rfl i c
theorem dg64_rhs0 (i : S50000x64.Idx) (c : dot_S50000x128_S128x64_S50000x64_1_0_0_1_n_n.contr.Idx) : (dot_S50000x128_S128x64_S50000x64_1_0_0_1_n_n.rhsIdx i c 0).val = (c ⟨0, by decide⟩).val :=
  dot_S50000x128_S128x64_S50000x64_1_0_0_1_n_n.rhsIdx_val_of_single rfl i c
theorem dg64_rhs1 (i : S50000x64.Idx) (c : dot_S50000x128_S128x64_S50000x64_1_0_0_1_n_n.contr.Idx) : (dot_S50000x128_S128x64_S50000x64_1_0_0_1_n_n.rhsIdx i c 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The product read at an entry: the plain sum over the contracted axis of the row of the left factor against the
    column of the right one. -/
theorem dg64_apply {φ₁ φ₂ : FTy} (lhs : FVec Ideal S50000x128 φ₁) (rhs : FVec Ideal S128x64 φ₂) (p : Fin 50000) (q : Fin 64) :
    Host.dotGeneral dot_S50000x128_S128x64_S50000x64_1_0_0_1_n_n none lhs rhs (ix2 p q) = ∑ k : Fin 128, lhs (ix2 p k) * rhs (ix2 k q) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 p q) ((contrEquiv1 dot_S50000x128_S128x64_S50000x64_1_0_0_1_n_n 128 rfl rfl).symm k) = ix2 p k := funext fun a => Fin.ext (by
    match a with
    | ⟨0, _⟩ => exact dg64_lhs0 _ _
    | ⟨1, _⟩ => exact (dg64_lhs1 _ _).trans hk)
  have er : dot_S50000x128_S128x64_S50000x64_1_0_0_1_n_n.rhsIdx (ix2 p q) ((contrEquiv1 dot_S50000x128_S128x64_S50000x64_1_0_0_1_n_n 128 rfl rfl).symm k) = ix2 k q := funext fun a => Fin.ext (by
    match a with
    | ⟨0, _⟩ => exact (dg64_rhs0 _ _).trans hk
    | ⟨1, _⟩ => exact dg64_rhs1 _ _)
  rw [el, er]

/-- The bias broadcast to a row and then down the rows, read at `(p, q)`: its entry `q`. -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- The zero scalar broadcast over the array reads the zero pattern everywhere. -/
theorem zero128_apply (i : S50000x128.Idx) :
    broadcastInDim S50000x128 ![] bcast_S_S50000x128 (constant (F := Ideal) S_ .f32 0x00000000#32) i = zeroF :=
  broadcastInDim_apply _ bcast_S_S50000x128 _ i (fun a => a.elim0) (fun a => a.elim0)

/-- The dense step into 128 features as the reference writes it is the dense step of Spec.lean. -/
theorem refDense128_eq (agg x : Arr S50000x128 .f32) (w : Arr S128x128 .f32) (b : Arr S128 .f32) (r : Arr S128x128 .f32) :
    refDense128 agg x w b r = dense128 agg x w b r := by
  funext i
  obtain ⟨p, q, rfl⟩ : ∃ (p : Fin 50000) (q : Fin 128), i = ix2 p q := ⟨i 0, i 1, eq_ix2 i⟩
  rw [dense128_apply]
  unfold refDense128 dense128At
  rw [maximumf_apply, addf_apply, addf_apply, dg128_apply, dg128_apply, bias128_apply, zero128_apply]

/-- The bias broadcast to a row and then down the rows, read at `(p, q)`: its entry `q`. -/
theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) :=
  (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- The zero scalar broadcast over the array reads the zero pattern everywhere. -/
theorem zero64_apply (i : S50000x64.Idx) :
    broadcastInDim S50000x64 ![] bcast_S_S50000x64 (constant (F := Ideal) S_ .f32 0x00000000#32) i = zeroF :=
  broadcastInDim_apply _ bcast_S_S50000x64 _ i (fun a => a.elim0) (fun a => a.elim0)

/-- The dense step into 64 features as the reference writes it is the dense step of Spec.lean. -/
theorem refDense64_eq (agg x : Arr S50000x128 .f32) (w : Arr S128x64 .f32) (b : Arr S64 .f32) (r : Arr S128x64 .f32) :
    refDense64 agg x w b r = dense64 agg x w b r := by
  funext i
  obtain ⟨p, q, rfl⟩ : ∃ (p : Fin 50000) (q : Fin 64), i = ix2 p q := ⟨i 0, i 1, eq_ix2 i⟩
  rw [dense64_apply]
  unfold refDense64 dense64At
  rw [maximumf_apply, addf_apply, addf_apply, dg64_apply, dg64_apply, bias64_apply, zero64_apply]

/-- The shape fact naming the coordinate a row index is completed with. -/
theorem rowReduces : S50000x64.Reduces [1] S50000 :=
  Exists.elim reducesTo_S50000x64_S50000_d1 fun h h2 => Exists.intro h (And.intro (show 0 < 1 from Nat.one_pos) h2)

theorem lift_row (p : Fin 50000) (k : Fin 64) : rowReduces.lift (ix1 p) k = ix2 p k :=
  funext fun a => Fin.ext (by match a with | ⟨0, _⟩ => rfl | ⟨1, _⟩ => rfl)

/-- The reference's row maximum, kept as a column and spread over the lanes, read at `(p, c)`. -/
theorem refRowMax_apply (h : Arr S50000x64 .f32) (p : Fin 50000) (c : Fin 64) :
    broadcastInDim S50000x64 ![0, 1] bcast_S50000x1_S50000x64_0_1 (broadcastInDim S50000x1 ![0] bcast_S50000_S50000x1_0
      (maximumf (F := Ideal) (broadcastInDim S50000 ![] bcast_S_S50000 (constant (F := Ideal) S_ .f32 0xFF800000#32))
        (Host.reduce (FloatOps.maximumf (F := Ideal)) h (constant (F := Ideal) S_ .f32 0xFF800000#32) reducesTo_S50000x64_S50000_d1 h_S_))) (ix2 p c)
      = rowMax h p := by
  refine (broadcastInDim_apply _ bcast_S50000x1_S50000x64_0_1 _ (ix2 p c) (ix2 p (0 : Fin 1)) (fun a => match a with
    | ⟨0, _⟩ => by show p.val = if (50000 : Nat) = 1 then 0 else p.val; rw [if_neg (by decide)]
    | ⟨1, _⟩ => by show 0 = if (1 : Nat) = 1 then 0 else c.val; rw [if_pos rfl])).trans ?_
  refine (broadcastInDim_apply _ bcast_S50000_S50000x1_0 _ (ix2 p (0 : Fin 1)) (ix1 p) (fun a => match a with
    | ⟨0, _⟩ => by show p.val = if (50000 : Nat) = 1 then 0 else p.val; rw [if_neg (by decide)])).trans ?_
  rw [maximumf_apply, Host.reduce_eq_fold_single (FloatOps.maximumf (F := Ideal)) h _ reducesTo_S50000x64_S50000_d1 rowReduces h_S_]
  have e0 : broadcastInDim S50000 ![] bcast_S_S50000 (constant (F := Ideal) S_ .f32 0xFF800000#32) (ix1 p) = negInfF :=
    broadcastInDim_apply _ bcast_S_S50000 _ (ix1 p) (fun a => a.elim0) (fun a => a.elim0)
  rw [e0]
  have e1 : (h ∘ rowReduces.lift (ix1 p)) = fun k => h (ix2 p k) := funext fun k => congrArg h (lift_row p k)
  rw [e1]
  exact max_start_fold negInfF _

theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl

/-- The row-wise log-softmax as the reference writes it is the log-softmax of Spec.lean. -/
theorem refLogSoftmax_eq (h : Arr S50000x64 .f32) : refLogSoftmax h = logSoftmax h := by
  funext i
  obtain ⟨p, q, rfl⟩ : ∃ (p : Fin 50000) (q : Fin 64), i = ix2 p q := ⟨i 0, i 1, eq_ix2 i⟩
  rw [logSoftmax_apply]
  unfold refLogSoftmax logSoftmaxAt
  rw [subf_apply, subf_apply, refRowMax_apply]
  refine congrArg (fun z => h (ix2 p q) - rowMax h p - z) ?_
  refine (broadcastInDim_apply _ bcast_S50000x1_S50000x64_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  rw [hostLog_apply]
  refine congrArg Ideal.log ((broadcastInDim_apply _ bcast_S50000_S50000x1_0 _ (ix2 p (0 : Fin 1)) (ix1 p) (fun a => match a with
    | ⟨0, _⟩ => by show p.val = if (50000 : Nat) = 1 then 0 else p.val; rw [if_neg (by decide)])).trans ?_)
  simp only [Host.reduceAdd, Ideal.hostReduceAdd_def]
  rw [Ideal.hostReduceAdd_single reducesTo_S50000x64_S50000_d1 rowReduces, constant_apply, Ideal.ofBits_zero_f32, zero_add]
  unfold rowExpSum
  show ∑ k : Fin 64, Host.exp (F := Ideal) _ (rowReduces.lift (ix1 p) k) = ∑ k : Fin 64, _
  refine Finset.sum_congr rfl fun k _ => ?_
  rw [lift_row p k, hostExp_apply, subf_apply, refRowMax_apply]

end Cert.Gcn.RefLayers

end
-- ==== Proof.Bridge.lean ====
/-
  The kernel's function of the argument arrays is the reference's.

  Both are three rounds of "aggregate the neighbours' features, dense step" and a row-wise log-softmax, over the same
  aggregation. The dense step as the reference writes it — bias added between the two products — and as the kernel
  computes it — bias, cast to a row, added after them — are both the dense step of Spec.lean, by commutativity and
  associativity of addition on the extended reals; the two log-softmaxes are the log-softmax of Spec.lean. No
  finiteness of the inputs is used.
-/
import proofs.«120820_j49323404427977_2_alg».proof.Proof.RefRun
import proofs.«120820_j49323404427977_2_alg».proof.Proof.RefLayers
import proofs.«120820_j49323404427977_2_alg».proof.Proof.Spec

noncomputable section

namespace Cert.Gcn.Bridge

open Idealize.ShloMosaic Cert.ReferenceIdeal Cert.Gcn Cert.Gcn.Graph Cert.Gcn.RefLayers

theorem results_agree (x : Arr S50000x128 .f32) (e : Arr S2x800000 .i32) (w1 : Arr S128x128 .f32) (b1 : Arr S128 .f32) (r1 : Arr S128x128 .f32)
    (w2 : Arr S128x128 .f32) (b2 : Arr S128 .f32) (r2 : Arr S128x128 .f32) (w3 : Arr S128x64 .f32) (b3 : Arr S64 .f32) (r3 : Arr S128x64 .f32)
    (h128 : Vec128.ShapeCasts Row128) (h64 : Vec64.ShapeCasts Row64) :
    logSoftmax (dense64K (aggT (dense128K (aggT (dense128K (aggT x (rowT e) (colT e) (wgtT (colT e))) x w1 (shapeCast Row128 b1 h128) r1) (rowT e) (colT e) (wgtT (colT e))) (dense128K (aggT x (rowT e) (colT e) (wgtT (colT e))) x w1 (shapeCast Row128 b1 h128) r1) w2 (shapeCast Row128 b2 h128) r2) (rowT e) (colT e) (wgtT (colT e))) (dense128K (aggT (dense128K (aggT x (rowT e) (colT e) (wgtT (colT e))) x w1 (shapeCast Row128 b1 h128) r1) (rowT e) (colT e) (wgtT (colT e))) (dense128K (aggT x (rowT e) (colT e) (wgtT (colT e))) x w1 (shapeCast Row128 b1 h128) r1) w2 (shapeCast Row128 b2 h128) r2) w3 (shapeCast Row64 b3 h64) r3)
      = RefRun.result x e w1 b1 r1 w2 b2 r2 w3 b3 r3 := by
  unfold RefRun.result
  simp only [refLogSoftmax_eq, refDense64_eq, refDense128_eq, dense64K_eq, dense128K_eq]

end Cert.Gcn.Bridge

end
-- ==== Proof.lean ====
/-
  The claim: a three-layer graph convolution — per layer, the degree-weighted mean of the neighbours' features, a
  dense step `relu (agg · W + b + x · R)`, and after the last layer a row-wise log-softmax — computed by a kernel
  that launches the dense step three times over blocks of 2000 nodes, against the plain array program.

  The three frames: the two kernel programs' are the generated frame certificates; the reference's is its run
  (RefRun.lean) with the result dropped. The idealized kernel rewrites nothing, so `preserves` is trivial. For
  `algebraic`: the idealized kernel's run leaves every buffer at the fold of contents through its segments
  (KernelRun.lean), whose result buffer is a function of the argument arrays (KernelValue.lean); the reference's run
  leaves its result at a function of its argument arrays (RefRun.lean); on arguments that agree the two functions
  are one (Bridge.lean), the only law used being commutativity and associativity of addition on the extended reals.
-/
import proofs.«120820_j49323404427977_2_alg».proof.Defs
import proofs.«120820_j49323404427977_2_alg».proof.Proof.Gen.Kernel
import proofs.«120820_j49323404427977_2_alg».proof.Proof.Gen.Kernel.Skeleton
import proofs.«120820_j49323404427977_2_alg».proof.Proof.Gen.Kernel.Launch
import proofs.«120820_j49323404427977_2_alg».proof.Proof.Gen.Kernel.Points
import proofs.«120820_j49323404427977_2_alg».proof.Proof.Gen.Kernel.Frame
import proofs.«120820_j49323404427977_2_alg».proof.Proof.Gen.KernelIdeal
import proofs.«120820_j49323404427977_2_alg».proof.Proof.Gen.KernelIdeal.Skeleton
import proofs.«120820_j49323404427977_2_alg».proof.Proof.Gen.KernelIdeal.Launch
import proofs.«120820_j49323404427977_2_alg».proof.Proof.Gen.KernelIdeal.Points
import proofs.«120820_j49323404427977_2_alg».proof.Proof.Gen.KernelIdeal.Frame
import proofs.«120820_j49323404427977_2_alg».proof.Proof.Gen.ReferenceIdeal
import proofs.«120820_j49323404427977_2_alg».proof.Proof.Gen.Pre_finite_inputs
import proofs.«120820_j49323404427977_2_alg».proof.Proof.KernelRun
import proofs.«120820_j49323404427977_2_alg».proof.Proof.KernelValue
import proofs.«120820_j49323404427977_2_alg».proof.Proof.RefRun
import proofs.«120820_j49323404427977_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.Gcn.RefRun.run m ρ)

theorem preserves : Cert.preserves_Kernel_KernelIdeal := trivial

/-- From memories agreeing on the arguments both idealized programs end with the same result array: the kernel's
    function of the argument arrays. -/
theorem algebraic : Cert.algebraic_KernelIdeal_ReferenceIdeal := by
  intro m ρ m' ρ' _ hagree
  refine ⟨fun c => Cert.Gcn.KernelValue.out m c, ?_, ?_⟩
  · exact (θ_run Cert.KernelIdeal.defs _ _).mono (fun r h c =>
      ⟨(h c _ (Cert.KernelIdeal.Gen.mem_uc Cert.KernelIdeal.main_v65 (by decide))).trans (Cert.Gcn.KernelValue.value m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c),
       (h c _ (Cert.KernelIdeal.Gen.mem_uc Cert.KernelIdeal.main_arg6 (by decide))).trans (Cert.KernelIdeal.Gen.W8_main_arg6 m ρ c),
       (h c _ (Cert.KernelIdeal.Gen.mem_uc Cert.KernelIdeal.main_arg7 (by decide))).trans (Cert.KernelIdeal.Gen.W8_main_arg7 m ρ c),
       (h c _ (Cert.KernelIdeal.Gen.mem_uc Cert.KernelIdeal.main_arg8 (by decide))).trans (Cert.KernelIdeal.Gen.W8_main_arg8 m ρ c),
       (h c _ (Cert.KernelIdeal.Gen.mem_uc Cert.KernelIdeal.main_arg9 (by decide))).trans (Cert.KernelIdeal.Gen.W8_main_arg9 m ρ c),
       (h c _ (Cert.KernelIdeal.Gen.mem_uc Cert.KernelIdeal.main_arg10 (by decide))).trans (Cert.KernelIdeal.Gen.W8_main_arg10 m ρ c)⟩)
      (Cert.Gcn.KernelRun.run_all m ρ)
  · refine (θ_run Cert.ReferenceIdeal.defs _ _).mono (fun r h c => ⟨(h c).1.trans ?_, (h c).2⟩) (Cert.Gcn.RefRun.run m' ρ')
    obtain ⟨a0, a1, a2, a3, a4, a5, a6, a7, a8, a9, a10⟩ := hagree c
    rw [a0, a1, a2, a3, a4, a5, a6, a7, a8, a9, a10]
    exact (Cert.Gcn.Bridge.results_agree _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
